-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S800000x128 : Shape := ⟨2, ![800000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 90
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S50000, .f32⟩
  | .hbm, ⟨38, _⟩ => ⟨S50000, .i1⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000, .f32⟩
  | .hbm, ⟨43, _⟩ => ⟨S_, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S_, .f32⟩
  | .hbm, ⟨49, _⟩ => ⟨S50000x1, .f32⟩
  | .hbm, ⟨50, _⟩ => ⟨S1x128, .f32⟩
  | .hbm, ⟨51, _⟩ => ⟨S50000x128, .f32⟩
  | .hbm, ⟨52, _⟩ => ⟨S_, .f32⟩
  | .hbm, ⟨53, _⟩ => ⟨S1x128, .f32⟩
  | .hbm, ⟨54, _⟩ => ⟨S50000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S_, .f32⟩
  | .hbm, ⟨71, _⟩ => ⟨S1x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S1x64, .f32⟩
  | .hbm, ⟨89, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S128x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x1, .f32⟩
  | .local _ .vmem, ⟨43, _⟩ => ⟨S5000x1, .f32⟩
  | .local _ .vmem, ⟨44, _⟩ => ⟨S128x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v23 : Ref sig .tc := ⟨.hbm, 46, rfl⟩
abbrev main_v24 : Ref sig .tc := ⟨.hbm, 47, rfl⟩
abbrev main_cst_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_9 : Ref sig .tc := ⟨.hbm, 52, rfl⟩
abbrev main_v28 : Ref sig .tc := ⟨.hbm, 53, rfl⟩
abbrev main_v29 : Ref sig .tc := ⟨.hbm, 54, rfl⟩
abbrev main_c : Ref sig .tc := ⟨.hbm, 55, rfl⟩
abbrev main_v30 : Ref sig .tc := ⟨.hbm, 56, rfl⟩
abbrev main_v31 : Ref sig .tc := ⟨.hbm, 57, rfl⟩
abbrev main_c_10 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_11 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev main_c_13 : Ref sig .tc := ⟨.hbm, 73, rfl⟩
abbrev main_v44 : Ref sig .tc := ⟨.hbm, 74, rfl⟩
abbrev main_v45 : Ref sig .tc := ⟨.hbm, 75, rfl⟩
abbrev main_c_14 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x1 : S_.BroadcastsInDim S50000x1 (![] : Fin 0 → Fin S50000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1x128 : S_.BroadcastsInDim S1x128 (![] : Fin 0 → Fin S1x128.rank)
  bcast_S_S50000x128 : S_.BroadcastsInDim S50000x128 (![] : Fin 0 → Fin S50000x128.rank)
  shapeCasts_S5000x128_S5000x128 : S5000x128.ShapeCasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x64.size a ≤ S128x64.size a
  hwx5_2 : ∀ i : grid5.Coords, EltTy.bits .f32 = 32 ∨ (Rect.block (s := S128x64) S128x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v53) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v27) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v55) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v55) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S128x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x64 : Shape := ⟨2, ![50000, 64]⟩
abbrev S1x64 : Shape := ⟨2, ![1, 64]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .f32⟩
  | 36 => ⟨S800000, .f32⟩
  | 37 => ⟨S_, .f32⟩
  | 38 => ⟨S50000, .f32⟩
  | 39 => ⟨S800000x1, .i32⟩
  | 40 => ⟨S50000, .f32⟩
  | 41 => ⟨S_, .f32⟩
  | 42 => ⟨S50000, .f32⟩
  | 43 => ⟨S50000, .i1⟩
  | 44 => ⟨S_, .f32⟩
  | 45 => ⟨S50000, .f32⟩
  | 46 => ⟨S50000, .f32⟩
  | 47 => ⟨S50000, .f32⟩
  | 48 => ⟨S_, .f32⟩
  | 49 => ⟨S_, .f32⟩
  | 50 => ⟨S50000, .f32⟩
  | 51 => ⟨S50000, .f32⟩
  | 52 => ⟨S50000x1, .f32⟩
  | 53 => ⟨S50000x128, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000x1, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S_, .f32⟩
  | 79 => ⟨S800000, .f32⟩
  | 80 => ⟨S_, .f32⟩
  | 81 => ⟨S50000, .f32⟩
  | 82 => ⟨S800000x1, .i32⟩
  | 83 => ⟨S50000, .f32⟩
  | 84 => ⟨S_, .f32⟩
  | 85 => ⟨S50000, .f32⟩
  | 86 => ⟨S50000, .i1⟩
  | 87 => ⟨S_, .f32⟩
  | 88 => ⟨S50000, .f32⟩
  | 89 => ⟨S50000, .f32⟩
  | 90 => ⟨S50000, .f32⟩
  | 91 => ⟨S_, .f32⟩
  | 92 => ⟨S_, .f32⟩
  | 93 => ⟨S50000, .f32⟩
  | 94 => ⟨S50000, .f32⟩
  | 95 => ⟨S_, .f32⟩
  | 96 => ⟨S800000, .f32⟩
  | 97 => ⟨S_, .f32⟩
  | 98 => ⟨S50000, .f32⟩
  | 99 => ⟨S800000x1, .i32⟩
  | 100 => ⟨S50000, .f32⟩
  | 101 => ⟨S_, .f32⟩
  | 102 => ⟨S50000, .f32⟩
  | 103 => ⟨S50000, .i1⟩
  | 104 => ⟨S_, .f32⟩
  | 105 => ⟨S50000, .f32⟩
  | 106 => ⟨S50000, .f32⟩
  | 107 => ⟨S50000, .f32⟩
  | 108 => ⟨S_, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S50000x128, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x128, .f32⟩
  | 125 => ⟨S_, .f32⟩
  | 126 => ⟨S50000x128, .f32⟩
  | 127 => ⟨S800000x1, .i32⟩
  | _ => ⟨S50000x128, .f32⟩

abbrev hbmTy0_1 (i : Nat) : BufTy := match i % 128 with
  | 0 => ⟨S50000x128, .f32⟩
  | 1 => ⟨S50000x1, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S50000x64, .f32⟩
  | 12 => ⟨S1x64, .f32⟩
  | 13 => ⟨S50000x64, .f32⟩
  | 14 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_call1_v0 : Ref sig .tc := ⟨.hbm, 49, rfl⟩
abbrev main_call1_v1 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c : Ref sig .tc := ⟨.hbm, 56, rfl⟩
abbrev main_v32 : Ref sig .tc := ⟨.hbm, 57, rfl⟩
abbrev main_v33 : Ref sig .tc := ⟨.hbm, 58, rfl⟩
abbrev main_c_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call2_cst : Ref sig .tc := ⟨.hbm, 75, rfl⟩
abbrev main_call2_v0 : Ref sig .tc := ⟨.hbm, 76, rfl⟩
abbrev main_v48 : Ref sig .tc := ⟨.hbm, 77, rfl⟩
abbrev main_cst_11 : Ref sig .tc := ⟨.hbm, 78, rfl⟩
abbrev main_v49 : Ref sig .tc := ⟨.hbm, 79, rfl⟩
abbrev main_cst_12 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_15 : Ref sig .tc := ⟨.hbm, 91, rfl⟩
abbrev main_call3_v0 : Ref sig .tc := ⟨.hbm, 92, rfl⟩
abbrev main_call3_v1 : Ref sig .tc := ⟨.hbm, 93, rfl⟩
abbrev main_v58 : Ref sig .tc := ⟨.hbm, 94, rfl⟩
abbrev main_cst_16 : Ref sig .tc := ⟨.hbm, 95, rfl⟩
abbrev main_v59 : Ref sig .tc := ⟨.hbm, 96, rfl⟩
abbrev main_cst_17 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_18 : Ref sig .tc := ⟨.hbm, 101, rfl⟩
abbrev main_v63 : Ref sig .tc := ⟨.hbm, 102, rfl⟩
abbrev main_v64 : Ref sig .tc := ⟨.hbm, 103, rfl⟩
abbrev main_cst_19 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_20 : Ref sig .tc := ⟨.hbm, 108, rfl⟩
abbrev main_call4_v0 : Ref sig .tc := ⟨.hbm, 109, rfl⟩
abbrev main_call4_v1 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_c_21 : Ref sig .tc := ⟨.hbm, 116, rfl⟩
abbrev main_v73 : Ref sig .tc := ⟨.hbm, 117, rfl⟩
abbrev main_v74 : Ref sig .tc := ⟨.hbm, 118, rfl⟩
abbrev main_c_22 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_23 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_call5_cst : Ref sig .tc := ⟨.hbm, 136, rfl⟩
abbrev main_call5_v0 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its RESULT named. The program is sixteen segments in a row — stretches of host
  operations and six pipelined kernel launches — and the buffer contents at each boundary are a fold from the launch
  memory (the boundary contents `W0` … `W16` of the frame module). Every execution ends with every unscoped buffer at
  the last boundary's contents; read at the result buffer this names the result, and read at the arguments it says
  they are as launched.
-/
import proofs.«178389_j45311904973180_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's program terminates, nothing faulting, with the result
    buffer at the last boundary's contents and the ten argument arrays as launched. -/
theorem run : θ_run defs (onTc (τ := τ) (main (F := F))) ⟨m, fun _ => 0, ρ⟩ (fun r => ∀ c : Dev nD,
      r.2.mem ((c.tc : Thread nD τ).loc main_v57) = W16 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v57 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.Run

end
-- ==== Proof.KernelNames.lean ====
/-
  The kernel program's host side, named. Around its six launches the program computes, from the edge list (two rows
  of 800000 node numbers: sources and destinations),
    * the DEGREE of every node with respect to one row: a scatter-add of ones into 50000 zeros;
    * the NORM of every node: 1/sqrt(max(degree, 1)) where the degree is positive, and 0 elsewhere;
    * the AGGREGATION of a feature array: gather the row of every edge's source (a negative node number counted
      from the end), and scatter-add it into the row of the edge's destination, starting from zeros.
  They are stated once here, as functions of the index rows, so that every later statement carries them by name.
-/
import proofs.«178389_j45311904973180_1_alg».proof.Proof.Gen.KernelIdeal.Frame
import Idealize.ShloMosaic.Lib.StableHlo.Run
import Idealize.ShloMosaic.PureOps.Ideal
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

/-- The edge list's row of source nodes. -/
def srcIdx (m : (ℓ : Loc nD τ sig) → Buf (Elt Ideal) ℓ) (c : Dev nD) : IVec S800000 32 :=
  shapeCast S800000 (extractStridedSlice S1x800000 ![0, 0] (m ((c.tc : Thread nD τ).loc main_arg1)) slices_S2x800000_S1x800000_0_0) shapeCasts_S1x800000_S800000

/-- The edge list's row of destination nodes. -/
def dstIdx (m : (ℓ : Loc nD τ sig) → Buf (Elt Ideal) ℓ) (c : Dev nD) : IVec S800000 32 :=
  shapeCast S800000 (extractStridedSlice S1x800000 ![1, 0] (m ((c.tc : Thread nD τ).loc main_arg1)) slices_S2x800000_S1x800000_1_0) shapeCasts_S1x800000_S800000

/-- How many edges name each node in the row `idx`: ones added into zeros at the row's entries. -/
def degOf (idx : IVec S800000 32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 idx)
    (broadcastInDim S800000 ![] bcast_S_S800000 (constant (F := Ideal) S_ .f32 0x3F800000#32))

/-- The norm of each node with respect to the row `idx`: the inverse square root of its degree clamped below at
    one, where the degree is positive; zero elsewhere. -/
def normOf (idx : IVec S800000 32) : FVec Ideal S50000 .f32 :=
  select (cmpf (F := Ideal) .ogt (degOf idx) (broadcastInDim S50000 ![] bcast_S_S50000 (constant (F := Ideal) S_ .f32 0x00000000#32)))
    (Host.rsqrt (F := Ideal) (maximumf (degOf idx) (broadcastInDim S50000 ![] bcast_S_S50000 (constant (F := Ideal) S_ .f32 0x3F800000#32))))
    (broadcastInDim S50000 ![] bcast_S_S50000 (id (constant (F := Ideal) S_ .f32 0x00000000#32)))

/-- The aggregation of a feature array along the edges: the source's row of every edge, added into the
    destination's row. -/
def aggOf (src dst : IVec S800000 32) (h : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- One stretch of host operations read at a buffer: the contents the stretch starts from are made a variable
    (they are a long fold, which nothing here needs to open), then each operation's result is read. -/
macro "hstep" ops:term:max W:term:max : tactic =>
  `(tactic| (show StableHlo.after $ops $W _ = _; generalize $W = V'; after_results))

end Cert.KernelIdeal.Net

end
-- ==== Proof.KernelKeeps.lean ====
/- Intermediate arrays at the boundaries where the program reads them again. An array one segment produces — an
  index row, a norm column, the column of ones, the residual branch, a launch's output — is read by later segments;
  between its producer and a reader no host operation writes it and no launch has it as its output, so it holds
  what its producer left: each statement walks the boundaries down to the producer, one step per segment. -/
import proofs.«178389_j45311904973180_1_alg».proof.Proof.KernelNames

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem W7_v17 : W7 (F := Ideal) m ρ c (Proc.devRef .tc main_v17) = W3 (F := Ideal) m ρ c (Proc.devRef .tc main_v17) :=
  calc W7 (F := Ideal) m ρ c (Proc.devRef .tc main_v17)
    _ = W6 m ρ c (Proc.devRef .tc main_v17) := by hstep hostOps1 (W6 m ρ c)
    _ = W5 m ρ c (Proc.devRef .tc main_v17) := W6_of_ne m ρ c main_v17 (by decide)
    _ = W4 m ρ c (Proc.devRef .tc main_v17) := by hstep hostOps0_4 (W4 m ρ c)
    _ = W3 m ρ c (Proc.devRef .tc main_v17) := by hstep hostOps0_3 (W3 m ρ c)

theorem W11_v17 : W11 (F := Ideal) m ρ c (Proc.devRef .tc main_v17) = W3 (F := Ideal) m ρ c (Proc.devRef .tc main_v17) :=
  calc W11 (F := Ideal) m ρ c (Proc.devRef .tc main_v17)
    _ = W10 m ρ c (Proc.devRef .tc main_v17) := by hstep hostOps3 (W10 m ρ c)
    _ = W9 m ρ c (Proc.devRef .tc main_v17) := W10_of_ne m ρ c main_v17 (by decide)
    _ = W8 m ρ c (Proc.devRef .tc main_v17) := by hstep hostOps2 (W8 m ρ c)
    _ = W7 m ρ c (Proc.devRef .tc main_v17) := (W8_arr m ρ c 1).trans (((dat1 (V7 m ρ) c).arrAt_in 1 rfl _).trans (A_eq1 (V7 m ρ) c 1))
    _ = W6 m ρ c (Proc.devRef .tc main_v17) := by hstep hostOps1 (W6 m ρ c)
    _ = W5 m ρ c (Proc.devRef .tc main_v17) := W6_of_ne m ρ c main_v17 (by decide)
    _ = W4 m ρ c (Proc.devRef .tc main_v17) := by hstep hostOps0_4 (W4 m ρ c)
    _ = W3 m ρ c (Proc.devRef .tc main_v17) := by hstep hostOps0_3 (W3 m ρ c)

theorem W9_v24 : W9 (F := Ideal) m ρ c (Proc.devRef .tc main_v24) = W5 (F := Ideal) m ρ c (Proc.devRef .tc main_v24) :=
  calc W9 (F := Ideal) m ρ c (Proc.devRef .tc main_v24)
    _ = W8 m ρ c (Proc.devRef .tc main_v24) := by hstep hostOps2 (W8 m ρ c)
    _ = W7 m ρ c (Proc.devRef .tc main_v24) := W8_of_ne m ρ c main_v24 (by decide)
    _ = W6 m ρ c (Proc.devRef .tc main_v24) := by hstep hostOps1 (W6 m ρ c)
    _ = W5 m ρ c (Proc.devRef .tc main_v24) := W6_of_ne m ρ c main_v24 (by decide)

theorem W13_v24 : W13 (F := Ideal) m ρ c (Proc.devRef .tc main_v24) = W5 (F := Ideal) m ρ c (Proc.devRef .tc main_v24) :=
  calc W13 (F := Ideal) m ρ c (Proc.devRef .tc main_v24)
    _ = W12 m ρ c (Proc.devRef .tc main_v24) := by hstep hostOps4 (W12 m ρ c)
    _ = W11 m ρ c (Proc.devRef .tc main_v24) := W12_of_ne m ρ c main_v24 (by decide)
    _ = W10 m ρ c (Proc.devRef .tc main_v24) := by hstep hostOps3 (W10 m ρ c)
    _ = W9 m ρ c (Proc.devRef .tc main_v24) := (W10_arr m ρ c 1).trans (((dat2 (V9 m ρ) c).arrAt_in 1 rfl _).trans (A_eq2 (V9 m ρ) c 1))
    _ = W8 m ρ c (Proc.devRef .tc main_v24) := by hstep hostOps2 (W8 m ρ c)
    _ = W7 m ρ c (Proc.devRef .tc main_v24) := W8_of_ne m ρ c main_v24 (by decide)
    _ = W6 m ρ c (Proc.devRef .tc main_v24) := by hstep hostOps1 (W6 m ρ c)
    _ = W5 m ρ c (Proc.devRef .tc main_v24) := W6_of_ne m ρ c main_v24 (by decide)

theorem W15_v25 : W15 (F := Ideal) m ρ c (Proc.devRef .tc main_v25) = W5 (F := Ideal) m ρ c (Proc.devRef .tc main_v25) :=
  calc W15 (F := Ideal) m ρ c (Proc.devRef .tc main_v25)
    _ = W14 m ρ c (Proc.devRef .tc main_v25) := by hstep hostOps5 (W14 m ρ c)
    _ = W13 m ρ c (Proc.devRef .tc main_v25) := W14_of_ne m ρ c main_v25 (by decide)
    _ = W12 m ρ c (Proc.devRef .tc main_v25) := by hstep hostOps4 (W12 m ρ c)
    _ = W11 m ρ c (Proc.devRef .tc main_v25) := W12_of_ne m ρ c main_v25 (by decide)
    _ = W10 m ρ c (Proc.devRef .tc main_v25) := by hstep hostOps3 (W10 m ρ c)
    _ = W9 m ρ c (Proc.devRef .tc main_v25) := W10_of_ne m ρ c main_v25 (by decide)
    _ = W8 m ρ c (Proc.devRef .tc main_v25) := by hstep hostOps2 (W8 m ρ c)
    _ = W7 m ρ c (Proc.devRef .tc main_v25) := W8_of_ne m ρ c main_v25 (by decide)
    _ = W6 m ρ c (Proc.devRef .tc main_v25) := by hstep hostOps1 (W6 m ρ c)
    _ = W5 m ρ c (Proc.devRef .tc main_v25) := (W6_arr m ρ c 1).trans (((dat0 (V5 m ρ) c).arrAt_in 1 rfl _).trans (A_eq0 (V5 m ρ) c 1))

theorem W13_v27 : W13 (F := Ideal) m ρ c (Proc.devRef .tc main_v27) = W6 (F := Ideal) m ρ c (Proc.devRef .tc main_v27) :=
  calc W13 (F := Ideal) m ρ c (Proc.devRef .tc main_v27)
    _ = W12 m ρ c (Proc.devRef .tc main_v27) := by hstep hostOps4 (W12 m ρ c)
    _ = W11 m ρ c (Proc.devRef .tc main_v27) := W12_of_ne m ρ c main_v27 (by decide)
    _ = W10 m ρ c (Proc.devRef .tc main_v27) := by hstep hostOps3 (W10 m ρ c)
    _ = W9 m ρ c (Proc.devRef .tc main_v27) := W10_of_ne m ρ c main_v27 (by decide)
    _ = W8 m ρ c (Proc.devRef .tc main_v27) := by hstep hostOps2 (W8 m ρ c)
    _ = W7 m ρ c (Proc.devRef .tc main_v27) := W8_of_ne m ρ c main_v27 (by decide)
    _ = W6 m ρ c (Proc.devRef .tc main_v27) := by hstep hostOps1 (W6 m ρ c)

theorem W8_v1 : W8 (F := Ideal) m ρ c (Proc.devRef .tc main_v1) = W1 (F := Ideal) m ρ c (Proc.devRef .tc main_v1) :=
  calc W8 (F := Ideal) m ρ c (Proc.devRef .tc main_v1)
    _ = W7 m ρ c (Proc.devRef .tc main_v1) := W8_of_ne m ρ c main_v1 (by decide)
    _ = W6 m ρ c (Proc.devRef .tc main_v1) := by hstep hostOps1 (W6 m ρ c)
    _ = W5 m ρ c (Proc.devRef .tc main_v1) := W6_of_ne m ρ c main_v1 (by decide)
    _ = W4 m ρ c (Proc.devRef .tc main_v1) := by hstep hostOps0_4 (W4 m ρ c)
    _ = W3 m ρ c (Proc.devRef .tc main_v1) := by hstep hostOps0_3 (W3 m ρ c)
    _ = W2 m ρ c (Proc.devRef .tc main_v1) := by hstep hostOps0_2 (W2 m ρ c)
    _ = W1 m ρ c (Proc.devRef .tc main_v1) := by hstep hostOps0_1 (W1 m ρ c)

theorem W12_v1 : W12 (F := Ideal) m ρ c (Proc.devRef .tc main_v1) = W1 (F := Ideal) m ρ c (Proc.devRef .tc main_v1) :=
  calc W12 (F := Ideal) m ρ c (Proc.devRef .tc main_v1)
    _ = W11 m ρ c (Proc.devRef .tc main_v1) := W12_of_ne m ρ c main_v1 (by decide)
    _ = W10 m ρ c (Proc.devRef .tc main_v1) := by hstep hostOps3 (W10 m ρ c)
    _ = W9 m ρ c (Proc.devRef .tc main_v1) := W10_of_ne m ρ c main_v1 (by decide)
    _ = W8 m ρ c (Proc.devRef .tc main_v1) := by hstep hostOps2 (W8 m ρ c)
    _ = W7 m ρ c (Proc.devRef .tc main_v1) := W8_of_ne m ρ c main_v1 (by decide)
    _ = W6 m ρ c (Proc.devRef .tc main_v1) := by hstep hostOps1 (W6 m ρ c)
    _ = W5 m ρ c (Proc.devRef .tc main_v1) := W6_of_ne m ρ c main_v1 (by decide)
    _ = W4 m ρ c (Proc.devRef .tc main_v1) := by hstep hostOps0_4 (W4 m ρ c)
    _ = W3 m ρ c (Proc.devRef .tc main_v1) := by hstep hostOps0_3 (W3 m ρ c)
    _ = W2 m ρ c (Proc.devRef .tc main_v1) := by hstep hostOps0_2 (W2 m ρ c)
    _ = W1 m ρ c (Proc.devRef .tc main_v1) := by hstep hostOps0_1 (W1 m ρ c)

theorem W8_v3 : W8 (F := Ideal) m ρ c (Proc.devRef .tc main_v3) = W1 (F := Ideal) m ρ c (Proc.devRef .tc main_v3) :=
  calc W8 (F := Ideal) m ρ c (Proc.devRef .tc main_v3)
    _ = W7 m ρ c (Proc.devRef .tc main_v3) := W8_of_ne m ρ c main_v3 (by decide)
    _ = W6 m ρ c (Proc.devRef .tc main_v3) := by hstep hostOps1 (W6 m ρ c)
    _ = W5 m ρ c (Proc.devRef .tc main_v3) := W6_of_ne m ρ c main_v3 (by decide)
    _ = W4 m ρ c (Proc.devRef .tc main_v3) := by hstep hostOps0_4 (W4 m ρ c)
    _ = W3 m ρ c (Proc.devRef .tc main_v3) := by hstep hostOps0_3 (W3 m ρ c)
    _ = W2 m ρ c (Proc.devRef .tc main_v3) := by hstep hostOps0_2 (W2 m ρ c)
    _ = W1 m ρ c (Proc.devRef .tc main_v3) := by hstep hostOps0_1 (W1 m ρ c)

theorem W12_v3 : W12 (F := Ideal) m ρ c (Proc.devRef .tc main_v3) = W1 (F := Ideal) m ρ c (Proc.devRef .tc main_v3) :=
  calc W12 (F := Ideal) m ρ c (Proc.devRef .tc main_v3)
    _ = W11 m ρ c (Proc.devRef .tc main_v3) := W12_of_ne m ρ c main_v3 (by decide)
    _ = W10 m ρ c (Proc.devRef .tc main_v3) := by hstep hostOps3 (W10 m ρ c)
    _ = W9 m ρ c (Proc.devRef .tc main_v3) := W10_of_ne m ρ c main_v3 (by decide)
    _ = W8 m ρ c (Proc.devRef .tc main_v3) := by hstep hostOps2 (W8 m ρ c)
    _ = W7 m ρ c (Proc.devRef .tc main_v3) := W8_of_ne m ρ c main_v3 (by decide)
    _ = W6 m ρ c (Proc.devRef .tc main_v3) := by hstep hostOps1 (W6 m ρ c)
    _ = W5 m ρ c (Proc.devRef .tc main_v3) := W6_of_ne m ρ c main_v3 (by decide)
    _ = W4 m ρ c (Proc.devRef .tc main_v3) := by hstep hostOps0_4 (W4 m ρ c)
    _ = W3 m ρ c (Proc.devRef .tc main_v3) := by hstep hostOps0_3 (W3 m ρ c)
    _ = W2 m ρ c (Proc.devRef .tc main_v3) := by hstep hostOps0_2 (W2 m ρ c)
    _ = W1 m ρ c (Proc.devRef .tc main_v3) := by hstep hostOps0_1 (W1 m ρ c)

theorem W11_v41 : W11 (F := Ideal) m ρ c (Proc.devRef .tc main_v41) = W10 (F := Ideal) m ρ c (Proc.devRef .tc main_v41) :=
  calc W11 (F := Ideal) m ρ c (Proc.devRef .tc main_v41)
    _ = W10 m ρ c (Proc.devRef .tc main_v41) := by hstep hostOps3 (W10 m ρ c)

theorem W15_v55 : W15 (F := Ideal) m ρ c (Proc.devRef .tc main_v55) = W14 (F := Ideal) m ρ c (Proc.devRef .tc main_v55) :=
  calc W15 (F := Ideal) m ρ c (Proc.devRef .tc main_v55)
    _ = W14 m ρ c (Proc.devRef .tc main_v55) := by hstep hostOps5 (W14 m ρ c)

theorem W2_v10 : W2 (F := Ideal) m ρ c (Proc.devRef .tc main_v10) = W1 (F := Ideal) m ρ c (Proc.devRef .tc main_v10) :=
  calc W2 (F := Ideal) m ρ c (Proc.devRef .tc main_v10)
    _ = W1 m ρ c (Proc.devRef .tc main_v10) := by hstep hostOps0_1 (W1 m ρ c)

end Cert.KernelIdeal.Net

end
-- ==== Proof.KernelNorms.lean ====
/-
  What the host operations before the first launch leave: the two index rows, the two norm columns (each norm,
  computed per node, reshaped into a column of 50000), the column of ones that stands where a projection is not
  scaled, and the first bias reshaped into a row. Each statement reads one stretch of host operations at one
  buffer; what the stretch reads from earlier stretches is named by the earlier statements.
-/
import proofs.«178389_j45311904973180_1_alg».proof.Proof.KernelNames
import proofs.«178389_j45311904973180_1_alg».proof.Proof.KernelKeeps

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first stretch: the index rows, the degrees and the pieces of the source norm -/

theorem W1_v1 : W1 (F := Ideal) m ρ c (Proc.devRef .tc main_v1) = srcIdx m c := by
  show StableHlo.after hostOps0 (W0 m ρ c) _ = _
  after_results_simp
  rfl

theorem W1_v3 : W1 (F := Ideal) m ρ c (Proc.devRef .tc main_v3) = dstIdx m c := by
  show StableHlo.after hostOps0 (W0 m ρ c) _ = _
  after_results_simp
  rfl

theorem W1_v10 : W1 (F := Ideal) m ρ c (Proc.devRef .tc main_v10) = degOf (dstIdx m c) := by
  show StableHlo.after hostOps0 (W0 m ρ c) _ = _
  after_results_simp
  rfl

theorem W1_v12 : W1 (F := Ideal) m ρ c (Proc.devRef .tc main_v12)
    = cmpf (F := Ideal) .ogt (degOf (srcIdx m c)) (broadcastInDim S50000 ![] bcast_S_S50000 (constant (F := Ideal) S_ .f32 0x00000000#32)) := by
  show StableHlo.after hostOps0 (W0 m ρ c) _ = _
  after_results_simp
  rfl

theorem W1_v15 : W1 (F := Ideal) m ρ c (Proc.devRef .tc main_v15)
    = Host.rsqrt (F := Ideal) (maximumf (degOf (srcIdx m c)) (broadcastInDim S50000 ![] bcast_S_S50000 (constant (F := Ideal) S_ .f32 0x3F800000#32))) := by
  show StableHlo.after hostOps0 (W0 m ρ c) _ = _
  after_results_simp
  rfl

theorem W1_cst_4 : W1 (F := Ideal) m ρ c (Proc.devRef .tc main_cst_4) = constant (F := Ideal) S_ .f32 0x00000000#32 := by
  show StableHlo.after hostOps0 (W0 m ρ c) _ = _
  after_results_simp

/-! ## The source norm, and its column -/

theorem W2_v16 : W2 (F := Ideal) m ρ c (Proc.devRef .tc main_v16) = normOf (srcIdx m c) := by
  have h : W2 (F := Ideal) m ρ c (Proc.devRef .tc main_v16)
      = select (W1 (F := Ideal) m ρ c (Proc.devRef .tc main_v12)) (W1 (F := Ideal) m ρ c (Proc.devRef .tc main_v15))
          (broadcastInDim S50000 ![] bcast_S_S50000 (id (W1 (F := Ideal) m ρ c (Proc.devRef .tc main_cst_4)))) := by
    hstep hostOps0_1 (W1 m ρ c)
    rfl
  rw [h, W1_v12, W1_v15, W1_cst_4]
  rfl

theorem W3_v17 : W3 (F := Ideal) m ρ c (Proc.devRef .tc main_v17) = shapeCast S50000x1 (normOf (srcIdx m c)) shapeCasts_S50000_S50000x1 := by
  have h : W3 (F := Ideal) m ρ c (Proc.devRef .tc main_v17) = shapeCast S50000x1 (W2 (F := Ideal) m ρ c (Proc.devRef .tc main_v16)) shapeCasts_S50000_S50000x1 := by
    hstep hostOps0_2 (W2 m ρ c)
    rfl
  rw [h, W2_v16]

/-! ## The destination norm, and its column -/

theorem W3_v19 : W3 (F := Ideal) m ρ c (Proc.devRef .tc main_v19)
    = cmpf (F := Ideal) .ogt (degOf (dstIdx m c)) (broadcastInDim S50000 ![] bcast_S_S50000 (constant (F := Ideal) S_ .f32 0x00000000#32)) := by
  have h : W3 (F := Ideal) m ρ c (Proc.devRef .tc main_v19)
      = cmpf (F := Ideal) .ogt (W2 (F := Ideal) m ρ c (Proc.devRef .tc main_v10)) (broadcastInDim S50000 ![] bcast_S_S50000 (constant (F := Ideal) S_ .f32 0x00000000#32)) := by
    hstep hostOps0_2 (W2 m ρ c)
  rw [h, W2_v10, W1_v10]

theorem W3_v22 : W3 (F := Ideal) m ρ c (Proc.devRef .tc main_v22)
    = Host.rsqrt (F := Ideal) (maximumf (degOf (dstIdx m c)) (broadcastInDim S50000 ![] bcast_S_S50000 (constant (F := Ideal) S_ .f32 0x3F800000#32))) := by
  have h : W3 (F := Ideal) m ρ c (Proc.devRef .tc main_v22)
      = Host.rsqrt (F := Ideal) (maximumf (W2 (F := Ideal) m ρ c (Proc.devRef .tc main_v10)) (broadcastInDim S50000 ![] bcast_S_S50000 (constant (F := Ideal) S_ .f32 0x3F800000#32))) := by
    hstep hostOps0_2 (W2 m ρ c)
  rw [h, W2_v10, W1_v10]

theorem W3_cst_7 : W3 (F := Ideal) m ρ c (Proc.devRef .tc main_cst_7) = constant (F := Ideal) S_ .f32 0x00000000#32 := by
  hstep hostOps0_2 (W2 m ρ c)

theorem W4_v23 : W4 (F := Ideal) m ρ c (Proc.devRef .tc main_v23) = normOf (dstIdx m c) := by
  have h : W4 (F := Ideal) m ρ c (Proc.devRef .tc main_v23)
      = select (W3 (F := Ideal) m ρ c (Proc.devRef .tc main_v19)) (W3 (F := Ideal) m ρ c (Proc.devRef .tc main_v22))
          (broadcastInDim S50000 ![] bcast_S_S50000 (id (W3 (F := Ideal) m ρ c (Proc.devRef .tc main_cst_7)))) := by
    hstep hostOps0_3 (W3 m ρ c)
    rfl
  rw [h, W3_v19, W3_v22, W3_cst_7]
  rfl

theorem W5_v24 : W5 (F := Ideal) m ρ c (Proc.devRef .tc main_v24) = shapeCast S50000x1 (normOf (dstIdx m c)) shapeCasts_S50000_S50000x1 := by
  have h : W5 (F := Ideal) m ρ c (Proc.devRef .tc main_v24) = shapeCast S50000x1 (W4 (F := Ideal) m ρ c (Proc.devRef .tc main_v23)) shapeCasts_S50000_S50000x1 := by
    hstep hostOps0_4 (W4 m ρ c)
    rfl
  rw [h, W4_v23]

/-! ## The column of ones and the first bias row -/

theorem W5_v25 : W5 (F := Ideal) m ρ c (Proc.devRef .tc main_v25) = broadcastInDim S50000x1 ![] bcast_S_S50000x1 (constant (F := Ideal) S_ .f32 0x3F800000#32) := by
  hstep hostOps0_4 (W4 m ρ c)

theorem W5_v26_of : W5 (F := Ideal) m ρ c (Proc.devRef .tc main_v26) = shapeCast S1x128 (W4 (F := Ideal) m ρ c (Proc.devRef .tc main_arg3)) shapeCasts_S128_S1x128 := by
  hstep hostOps0_4 (W4 m ρ c)
  rfl

end Cert.KernelIdeal.Net

end
-- ==== Proof.KernelArgs.lean ====
/- The argument arrays at the boundaries where the program reads them. No host operation writes an argument and no
  launch has one as its output (a launch reads it through an input window, which leaves the array as it was), so
  at every boundary an argument array still holds its launch contents: each statement walks the boundaries down to
  the launch, one step per segment. -/
import proofs.«178389_j45311904973180_1_alg».proof.Proof.KernelNames

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem W5_arg0 : W5 (F := Ideal) m ρ c (Proc.devRef .tc main_arg0) = W0 (F := Ideal) m ρ c (Proc.devRef .tc main_arg0) :=
  calc W5 (F := Ideal) m ρ c (Proc.devRef .tc main_arg0)
    _ = W4 m ρ c (Proc.devRef .tc main_arg0) := by hstep hostOps0_4 (W4 m ρ c)
    _ = W3 m ρ c (Proc.devRef .tc main_arg0) := by hstep hostOps0_3 (W3 m ρ c)
    _ = W2 m ρ c (Proc.devRef .tc main_arg0) := by hstep hostOps0_2 (W2 m ρ c)
    _ = W1 m ρ c (Proc.devRef .tc main_arg0) := by hstep hostOps0_1 (W1 m ρ c)
    _ = W0 m ρ c (Proc.devRef .tc main_arg0) := by show StableHlo.after hostOps0 (W0 m ρ c) _ = _; after_results_simp

theorem W5_arg2 : W5 (F := Ideal) m ρ c (Proc.devRef .tc main_arg2) = W0 (F := Ideal) m ρ c (Proc.devRef .tc main_arg2) :=
  calc W5 (F := Ideal) m ρ c (Proc.devRef .tc main_arg2)
    _ = W4 m ρ c (Proc.devRef .tc main_arg2) := by hstep hostOps0_4 (W4 m ρ c)
    _ = W3 m ρ c (Proc.devRef .tc main_arg2) := by hstep hostOps0_3 (W3 m ρ c)
    _ = W2 m ρ c (Proc.devRef .tc main_arg2) := by hstep hostOps0_2 (W2 m ρ c)
    _ = W1 m ρ c (Proc.devRef .tc main_arg2) := by hstep hostOps0_1 (W1 m ρ c)
    _ = W0 m ρ c (Proc.devRef .tc main_arg2) := by show StableHlo.after hostOps0 (W0 m ρ c) _ = _; after_results_simp

theorem W4_arg3 : W4 (F := Ideal) m ρ c (Proc.devRef .tc main_arg3) = W0 (F := Ideal) m ρ c (Proc.devRef .tc main_arg3) :=
  calc W4 (F := Ideal) m ρ c (Proc.devRef .tc main_arg3)
    _ = W3 m ρ c (Proc.devRef .tc main_arg3) := by hstep hostOps0_3 (W3 m ρ c)
    _ = W2 m ρ c (Proc.devRef .tc main_arg3) := by hstep hostOps0_2 (W2 m ρ c)
    _ = W1 m ρ c (Proc.devRef .tc main_arg3) := by hstep hostOps0_1 (W1 m ρ c)
    _ = W0 m ρ c (Proc.devRef .tc main_arg3) := by show StableHlo.after hostOps0 (W0 m ρ c) _ = _; after_results_simp

theorem W7_arg0 : W7 (F := Ideal) m ρ c (Proc.devRef .tc main_arg0) = W0 (F := Ideal) m ρ c (Proc.devRef .tc main_arg0) :=
  calc W7 (F := Ideal) m ρ c (Proc.devRef .tc main_arg0)
    _ = W6 m ρ c (Proc.devRef .tc main_arg0) := by hstep hostOps1 (W6 m ρ c)
    _ = W5 m ρ c (Proc.devRef .tc main_arg0) := (W6_arr m ρ c 0).trans (((dat0 (V5 m ρ) c).arrAt_in 0 rfl _).trans (A_eq0 (V5 m ρ) c 0))
    _ = W4 m ρ c (Proc.devRef .tc main_arg0) := by hstep hostOps0_4 (W4 m ρ c)
    _ = W3 m ρ c (Proc.devRef .tc main_arg0) := by hstep hostOps0_3 (W3 m ρ c)
    _ = W2 m ρ c (Proc.devRef .tc main_arg0) := by hstep hostOps0_2 (W2 m ρ c)
    _ = W1 m ρ c (Proc.devRef .tc main_arg0) := by hstep hostOps0_1 (W1 m ρ c)
    _ = W0 m ρ c (Proc.devRef .tc main_arg0) := by show StableHlo.after hostOps0 (W0 m ρ c) _ = _; after_results_simp

theorem W7_arg4 : W7 (F := Ideal) m ρ c (Proc.devRef .tc main_arg4) = W0 (F := Ideal) m ρ c (Proc.devRef .tc main_arg4) :=
  calc W7 (F := Ideal) m ρ c (Proc.devRef .tc main_arg4)
    _ = W6 m ρ c (Proc.devRef .tc main_arg4) := by hstep hostOps1 (W6 m ρ c)
    _ = W5 m ρ c (Proc.devRef .tc main_arg4) := W6_of_ne m ρ c main_arg4 (by decide)
    _ = W4 m ρ c (Proc.devRef .tc main_arg4) := by hstep hostOps0_4 (W4 m ρ c)
    _ = W3 m ρ c (Proc.devRef .tc main_arg4) := by hstep hostOps0_3 (W3 m ρ c)
    _ = W2 m ρ c (Proc.devRef .tc main_arg4) := by hstep hostOps0_2 (W2 m ρ c)
    _ = W1 m ρ c (Proc.devRef .tc main_arg4) := by hstep hostOps0_1 (W1 m ρ c)
    _ = W0 m ρ c (Proc.devRef .tc main_arg4) := by show StableHlo.after hostOps0 (W0 m ρ c) _ = _; after_results_simp

theorem W8_arg5 : W8 (F := Ideal) m ρ c (Proc.devRef .tc main_arg5) = W0 (F := Ideal) m ρ c (Proc.devRef .tc main_arg5) :=
  calc W8 (F := Ideal) m ρ c (Proc.devRef .tc main_arg5)
    _ = W7 m ρ c (Proc.devRef .tc main_arg5) := W8_of_ne m ρ c main_arg5 (by decide)
    _ = W6 m ρ c (Proc.devRef .tc main_arg5) := by hstep hostOps1 (W6 m ρ c)
    _ = W5 m ρ c (Proc.devRef .tc main_arg5) := W6_of_ne m ρ c main_arg5 (by decide)
    _ = W4 m ρ c (Proc.devRef .tc main_arg5) := by hstep hostOps0_4 (W4 m ρ c)
    _ = W3 m ρ c (Proc.devRef .tc main_arg5) := by hstep hostOps0_3 (W3 m ρ c)
    _ = W2 m ρ c (Proc.devRef .tc main_arg5) := by hstep hostOps0_2 (W2 m ρ c)
    _ = W1 m ρ c (Proc.devRef .tc main_arg5) := by hstep hostOps0_1 (W1 m ρ c)
    _ = W0 m ρ c (Proc.devRef .tc main_arg5) := by show StableHlo.after hostOps0 (W0 m ρ c) _ = _; after_results_simp

theorem W11_arg6 : W11 (F := Ideal) m ρ c (Proc.devRef .tc main_arg6) = W0 (F := Ideal) m ρ c (Proc.devRef .tc main_arg6) :=
  calc W11 (F := Ideal) m ρ c (Proc.devRef .tc main_arg6)
    _ = W10 m ρ c (Proc.devRef .tc main_arg6) := by hstep hostOps3 (W10 m ρ c)
    _ = W9 m ρ c (Proc.devRef .tc main_arg6) := W10_of_ne m ρ c main_arg6 (by decide)
    _ = W8 m ρ c (Proc.devRef .tc main_arg6) := by hstep hostOps2 (W8 m ρ c)
    _ = W7 m ρ c (Proc.devRef .tc main_arg6) := W8_of_ne m ρ c main_arg6 (by decide)
    _ = W6 m ρ c (Proc.devRef .tc main_arg6) := by hstep hostOps1 (W6 m ρ c)
    _ = W5 m ρ c (Proc.devRef .tc main_arg6) := W6_of_ne m ρ c main_arg6 (by decide)
    _ = W4 m ρ c (Proc.devRef .tc main_arg6) := by hstep hostOps0_4 (W4 m ρ c)
    _ = W3 m ρ c (Proc.devRef .tc main_arg6) := by hstep hostOps0_3 (W3 m ρ c)
    _ = W2 m ρ c (Proc.devRef .tc main_arg6) := by hstep hostOps0_2 (W2 m ρ c)
    _ = W1 m ρ c (Proc.devRef .tc main_arg6) := by hstep hostOps0_1 (W1 m ρ c)
    _ = W0 m ρ c (Proc.devRef .tc main_arg6) := by show StableHlo.after hostOps0 (W0 m ρ c) _ = _; after_results_simp

theorem W12_arg7 : W12 (F := Ideal) m ρ c (Proc.devRef .tc main_arg7) = W0 (F := Ideal) m ρ c (Proc.devRef .tc main_arg7) :=
  calc W12 (F := Ideal) m ρ c (Proc.devRef .tc main_arg7)
    _ = W11 m ρ c (Proc.devRef .tc main_arg7) := W12_of_ne m ρ c main_arg7 (by decide)
    _ = W10 m ρ c (Proc.devRef .tc main_arg7) := by hstep hostOps3 (W10 m ρ c)
    _ = W9 m ρ c (Proc.devRef .tc main_arg7) := W10_of_ne m ρ c main_arg7 (by decide)
    _ = W8 m ρ c (Proc.devRef .tc main_arg7) := by hstep hostOps2 (W8 m ρ c)
    _ = W7 m ρ c (Proc.devRef .tc main_arg7) := W8_of_ne m ρ c main_arg7 (by decide)
    _ = W6 m ρ c (Proc.devRef .tc main_arg7) := by hstep hostOps1 (W6 m ρ c)
    _ = W5 m ρ c (Proc.devRef .tc main_arg7) := W6_of_ne m ρ c main_arg7 (by decide)
    _ = W4 m ρ c (Proc.devRef .tc main_arg7) := by hstep hostOps0_4 (W4 m ρ c)
    _ = W3 m ρ c (Proc.devRef .tc main_arg7) := by hstep hostOps0_3 (W3 m ρ c)
    _ = W2 m ρ c (Proc.devRef .tc main_arg7) := by hstep hostOps0_2 (W2 m ρ c)
    _ = W1 m ρ c (Proc.devRef .tc main_arg7) := by hstep hostOps0_1 (W1 m ρ c)
    _ = W0 m ρ c (Proc.devRef .tc main_arg7) := by show StableHlo.after hostOps0 (W0 m ρ c) _ = _; after_results_simp

theorem W15_arg8 : W15 (F := Ideal) m ρ c (Proc.devRef .tc main_arg8) = W0 (F := Ideal) m ρ c (Proc.devRef .tc main_arg8) :=
  calc W15 (F := Ideal) m ρ c (Proc.devRef .tc main_arg8)
    _ = W14 m ρ c (Proc.devRef .tc main_arg8) := by hstep hostOps5 (W14 m ρ c)
    _ = W13 m ρ c (Proc.devRef .tc main_arg8) := W14_of_ne m ρ c main_arg8 (by decide)
    _ = W12 m ρ c (Proc.devRef .tc main_arg8) := by hstep hostOps4 (W12 m ρ c)
    _ = W11 m ρ c (Proc.devRef .tc main_arg8) := W12_of_ne m ρ c main_arg8 (by decide)
    _ = W10 m ρ c (Proc.devRef .tc main_arg8) := by hstep hostOps3 (W10 m ρ c)
    _ = W9 m ρ c (Proc.devRef .tc main_arg8) := W10_of_ne m ρ c main_arg8 (by decide)
    _ = W8 m ρ c (Proc.devRef .tc main_arg8) := by hstep hostOps2 (W8 m ρ c)
    _ = W7 m ρ c (Proc.devRef .tc main_arg8) := W8_of_ne m ρ c main_arg8 (by decide)
    _ = W6 m ρ c (Proc.devRef .tc main_arg8) := by hstep hostOps1 (W6 m ρ c)
    _ = W5 m ρ c (Proc.devRef .tc main_arg8) := W6_of_ne m ρ c main_arg8 (by decide)
    _ = W4 m ρ c (Proc.devRef .tc main_arg8) := by hstep hostOps0_4 (W4 m ρ c)
    _ = W3 m ρ c (Proc.devRef .tc main_arg8) := by hstep hostOps0_3 (W3 m ρ c)
    _ = W2 m ρ c (Proc.devRef .tc main_arg8) := by hstep hostOps0_2 (W2 m ρ c)
    _ = W1 m ρ c (Proc.devRef .tc main_arg8) := by hstep hostOps0_1 (W1 m ρ c)
    _ = W0 m ρ c (Proc.devRef .tc main_arg8) := by show StableHlo.after hostOps0 (W0 m ρ c) _ = _; after_results_simp

theorem W14_arg9 : W14 (F := Ideal) m ρ c (Proc.devRef .tc main_arg9) = W0 (F := Ideal) m ρ c (Proc.devRef .tc main_arg9) :=
  calc W14 (F := Ideal) m ρ c (Proc.devRef .tc main_arg9)
    _ = W13 m ρ c (Proc.devRef .tc main_arg9) := W14_of_ne m ρ c main_arg9 (by decide)
    _ = W12 m ρ c (Proc.devRef .tc main_arg9) := by hstep hostOps4 (W12 m ρ c)
    _ = W11 m ρ c (Proc.devRef .tc main_arg9) := W12_of_ne m ρ c main_arg9 (by decide)
    _ = W10 m ρ c (Proc.devRef .tc main_arg9) := by hstep hostOps3 (W10 m ρ c)
    _ = W9 m ρ c (Proc.devRef .tc main_arg9) := W10_of_ne m ρ c main_arg9 (by decide)
    _ = W8 m ρ c (Proc.devRef .tc main_arg9) := by hstep hostOps2 (W8 m ρ c)
    _ = W7 m ρ c (Proc.devRef .tc main_arg9) := W8_of_ne m ρ c main_arg9 (by decide)
    _ = W6 m ρ c (Proc.devRef .tc main_arg9) := by hstep hostOps1 (W6 m ρ c)
    _ = W5 m ρ c (Proc.devRef .tc main_arg9) := W6_of_ne m ρ c main_arg9 (by decide)
    _ = W4 m ρ c (Proc.devRef .tc main_arg9) := by hstep hostOps0_4 (W4 m ρ c)
    _ = W3 m ρ c (Proc.devRef .tc main_arg9) := by hstep hostOps0_3 (W3 m ρ c)
    _ = W2 m ρ c (Proc.devRef .tc main_arg9) := by hstep hostOps0_2 (W2 m ρ c)
    _ = W1 m ρ c (Proc.devRef .tc main_arg9) := by hstep hostOps0_1 (W1 m ρ c)
    _ = W0 m ρ c (Proc.devRef .tc main_arg9) := by show StableHlo.after hostOps0 (W0 m ρ c) _ = _; after_results_simp

end Cert.KernelIdeal.Net

end
-- ==== Proof.Stages.lean ====
/-
  The dense stages of a two-layer graph convolution with a residual branch, each written as ONE function of whole
  arrays over the extended reals, index by index. Rows are the 50000 nodes, columns the 128 (or 64) features.

  * a LINEAR stage: row r of the input is scaled by the r-th entry of a column of per-node factors, multiplied
    by a weight matrix, and a row of biases is added:
        out[r, c] = (sum over k of (x[r, k] * s[r]) * w[k, c]) + b[c];
  * a POST-AGGREGATION stage: the aggregated features are scaled per node, a bias row is added, and the result is
    clamped below at zero:            out[r, c] = max (a[r, c] * s[r] + b[c]) 0;
  * the same with a residual array added before the clamp:
                                      out[r, c] = max (a[r, c] * s[r] + b[c] + res[r, c]) 0.

  The zero of the clamp is kept as the word of +0.0 read at the ideal instance: the same word stands on both sides
  of every equation below and is never evaluated. Two special cases of the linear stage are recorded: a column of
  ones as the factors leaves the rows unscaled (1 * x = x on every extended real), and a row of zeros as the bias
  adds nothing (x + 0 = x on every extended real). Neither needs the inputs to be finite.
-/
import Idealize.ShloMosaic.PureOps.Ideal
import Idealize.ShloMosaic.PureOps.Ideal.Laws
import Idealize.ShloMosaic.Lib.ValueIdx

noncomputable section

open scoped BigOperators

namespace Cert.Stages

open Idealize.ShloMosaic Idealize.ShloMosaic.ValueIdx

/-- Node features: 50000 rows of 128. -/
abbrev Feat : Shape := ⟨2, ![50000, 128]⟩
/-- The output's features: 50000 rows of 64. -/
abbrev FeatOut : Shape := ⟨2, ![50000, 64]⟩
/-- One factor per node, as a column. -/
abbrev Col : Shape := ⟨2, ![50000, 1]⟩
/-- A square weight matrix. -/
abbrev Wt : Shape := ⟨2, ![128, 128]⟩
/-- The output projection's weight matrix. -/
abbrev WtOut : Shape := ⟨2, ![128, 64]⟩
/-- A bias, as a row. -/
abbrev Row : Shape := ⟨2, ![1, 128]⟩
/-- The output projection's bias, as a row. -/
abbrev RowOut : Shape := ⟨2, ![1, 64]⟩

/-- The word of `+0.0` at the ideal instance. -/
abbrev zeroW : EReal := Ideal.ofBits .f32 0x00000000#32
/-- The word of `1.0` at the ideal instance. -/
abbrev oneW : EReal := Ideal.ofBits .f32 0x3F800000#32

theorem zeroW_eq : zeroW = 0 := Ideal.ofBits_zero_f32

theorem oneW_eq : oneW = 1 := by
  show Ideal.ofBits .f32 0x3F800000#32 = 1
  simp [Ideal.ofBits, Ideal.ieee, -EReal.coe_mul]; norm_num

/-- The linear stage at row `r`, column `c`. -/
def linAt (x : Feat.Idx → EReal) (s : Col.Idx → EReal) (w : Wt.Idx → EReal) (b : Row.Idx → EReal)
    (r : Fin 50000) (c : Fin 128) : EReal :=
  (∑ k : Fin 128, (x (ix2 r k) * s (ix2 r (0 : Fin 1))) * w (ix2 k c)) + b (ix2 (0 : Fin 1) c)

/-- The linear stage. -/
def lin (x : Feat.Idx → EReal) (s : Col.Idx → EReal) (w : Wt.Idx → EReal) (b : Row.Idx → EReal) : Feat.Idx → EReal :=
  fun i => linAt x s w b (i 0) (i 1)

/-- The output projection at row `r`, column `c`. -/
def linOutAt (x : Feat.Idx → EReal) (s : Col.Idx → EReal) (w : WtOut.Idx → EReal) (b : RowOut.Idx → EReal)
    (r : Fin 50000) (c : Fin 64) : EReal :=
  (∑ k : Fin 128, (x (ix2 r k) * s (ix2 r (0 : Fin 1))) * w (ix2 k c)) + b (ix2 (0 : Fin 1) c)

/-- The output projection: the linear stage into 64 columns. -/
def linOut (x : Feat.Idx → EReal) (s : Col.Idx → EReal) (w : WtOut.Idx → EReal) (b : RowOut.Idx → EReal) : FeatOut.Idx → EReal :=
  fun i => linOutAt x s w b (i 0) (i 1)

/-- The post-aggregation stage at row `r`, column `c`. -/
def postAt (a : Feat.Idx → EReal) (s : Col.Idx → EReal) (b : Row.Idx → EReal) (r : Fin 50000) (c : Fin 128) : EReal :=
  max (a (ix2 r c) * s (ix2 r (0 : Fin 1)) + b (ix2 (0 : Fin 1) c)) zeroW

/-- The post-aggregation stage. -/
def post (a : Feat.Idx → EReal) (s : Col.Idx → EReal) (b : Row.Idx → EReal) : Feat.Idx → EReal :=
  fun i => postAt a s b (i 0) (i 1)

/-- The post-aggregation stage with a residual, at row `r`, column `c`. -/
def postResAt (a : Feat.Idx → EReal) (s : Col.Idx → EReal) (b : Row.Idx → EReal) (res : Feat.Idx → EReal)
    (r : Fin 50000) (c : Fin 128) : EReal :=
  max (a (ix2 r c) * s (ix2 r (0 : Fin 1)) + b (ix2 (0 : Fin 1) c) + res (ix2 r c)) zeroW

/-- The post-aggregation stage with a residual. -/
def postRes (a : Feat.Idx → EReal) (s : Col.Idx → EReal) (b : Row.Idx → EReal) (res : Feat.Idx → EReal) : Feat.Idx → EReal :=
  fun i => postResAt a s b res (i 0) (i 1)

/-- A column of ones leaves the rows unscaled. -/
theorem linAt_ones (x : Feat.Idx → EReal) (w : Wt.Idx → EReal) (b : Row.Idx → EReal) (r : Fin 50000) (c : Fin 128) :
    linAt x (fun _ => oneW) w b r c = (∑ k : Fin 128, x (ix2 r k) * w (ix2 k c)) + b (ix2 (0 : Fin 1) c) := by
  unfold linAt
  simp only [oneW_eq, mul_one]

/-- A column of ones leaves the rows unscaled (the output projection). -/
theorem linOutAt_ones (x : Feat.Idx → EReal) (w : WtOut.Idx → EReal) (b : RowOut.Idx → EReal) (r : Fin 50000) (c : Fin 64) :
    linOutAt x (fun _ => oneW) w b r c = (∑ k : Fin 128, x (ix2 r k) * w (ix2 k c)) + b (ix2 (0 : Fin 1) c) := by
  unfold linOutAt
  simp only [oneW_eq, mul_one]

/-- A row of zeros as the bias adds nothing. -/
theorem linAt_zeros (x : Feat.Idx → EReal) (s : Col.Idx → EReal) (w : Wt.Idx → EReal) (r : Fin 50000) (c : Fin 128) :
    linAt x s w (fun _ => zeroW) r c = ∑ k : Fin 128, (x (ix2 r k) * s (ix2 r (0 : Fin 1))) * w (ix2 k c) := by
  unfold linAt
  simp only [zeroW_eq, add_zero]

end Cert.Stages

end
-- ==== Proof.Region0.lean ====
/-
  The first matmul region, as one function of whole arrays.

  The region runs over ten row blocks of 5000 nodes. At each block the body scales every row of the 5000x128 feature
  block by that row's entry of a 5000x1 column block, multiplies the result by the whole 128x128 weight matrix into a
  zero accumulator, and adds the 1x128 bias row to every row. At the ideal instance the narrowing to bf16 is the
  identity, so entry (p, q) of the block's result is

      (sum over k of (x[p, k] * s[p, 0]) * w[k, q]) + b[0, q].

  Block t of the feature and column arrays and of the output array starts at row 5000 * t, the weight and bias blocks
  are the whole arrays, and the ten output blocks cover all 50000 rows. So the output array ends holding the linear
  stage of the four arrays the region finds on entry, whatever those arrays are.
-/
import proofs.«178389_j45311904973180_1_alg».proof.Proof.Gen.KernelIdeal.Frame
import proofs.«178389_j45311904973180_1_alg».proof.Proof.Stages
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The body's result at an entry of the block -/

/-- The left operand's index at output entry `i` and contraction index `k`: row of `i`, column `k`. -/
theorem lhs_coord0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_coord1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right operand's index: row `k`, column of `i`. -/
theorem rhs_coord0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem rhs_coord1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matmul into the zero accumulator, read at entry (p, q): the sum over the 128 contraction positions. -/
theorem matmul_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_coord0 _ _
    | ⟨1, _⟩ => exact (lhs_coord1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_coord0 _ _).trans hk
    | ⟨1, _⟩ => exact rhs_coord1 _ _)
  rw [el, er]

/-- The column block broadcast along the columns, read at (p, k): the column's entry of row p. -/
theorem col_bcast_at (x1 : Vec Ideal S5000x1 .f32) (p : Fin 5000) (k : Fin 128) :
    broadcastTo S5000x128 (shapeCast S5000x1 x1 shapeCasts_S5000x1_S5000x1) broadcasts_S5000x1_S5000x128 (ix2 p k) = x1 (ix2 p (0 : Fin 1)) := by
  rw [shapeCast_self]
  exact broadcastTo_apply x1 broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else k.val; rw [if_pos rfl])

/-- The bias row broadcast along the rows, read at (p, q): the row's entry of column q. -/
theorem row_bcast_at (x3 : Vec Ideal S1x128 .f32) (p : Fin 5000) (q : Fin 128) :
    broadcastTo S5000x128 (shapeCast S1x128 x3 shapeCasts_S1x128_S1x128) broadcasts_S1x128_S5000x128 (ix2 p q) = x3 (ix2 (0 : Fin 1) q) := by
  rw [shapeCast_self]
  exact broadcastTo_apply x3 broadcasts_S1x128_S5000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The body's result at entry (p, q) of the block, from the four blocks it loads. -/
theorem pay_at (x0 : Vec Ideal S5000x128 .f32) (x1 : Vec Ideal S5000x1 .f32) (x2 : Vec Ideal S128x128 .f32) (x3 : Vec Ideal S1x128 .f32)
    (p : Fin 5000) (q : Fin 128) :
    k0_pay1 x0 x1 x2 x3 (ix2 p q)
      = (∑ k : Fin 128, (x0 (ix2 p k) * x1 (ix2 p (0 : Fin 1))) * x2 (ix2 k q)) + x3 (ix2 (0 : Fin 1) q) := by
  unfold k0_pay1
  refine (addf_apply _ _ (ix2 p q)).trans ?_
  refine congrArg₂ (· + ·) ?_ (row_bcast_at x3 p q)
  refine (matmul_at _ _ p q).trans ?_
  refine Finset.sum_congr rfl fun k _ => ?_
  show x0 (ix2 p k) * broadcastTo S5000x128 (shapeCast S5000x1 x1 shapeCasts_S5000x1_S5000x1) broadcasts_S5000x1_S5000x128 (ix2 p k) * x2 (ix2 k q) = _
  rw [col_bcast_at]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block indices over the ten points: the feature, column and output blocks move together along the rows and sit at
    column block 0; the weight and bias blocks are always block (0, 0); the row block index is at most 9. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 9 :=
  (by decide +kernel : ∀ t : Fin grid0.N, _)

/-- Every one of the ten row blocks of the output is some point's. -/
theorem idx_onto : ∀ b : Fin 10, ∃ t : Fin cfg0.N, win0_4.index t = ![b.val, 0] :=
  (by decide +kernel : ∀ b : Fin 10, ∃ t : Fin grid0.N, win0_4.index t = ![b.val, 0])

/-- Entry `x` of the feature block at point `t` is the array's entry at block index times block size plus `x`. -/
theorem blk0_at (c : Dev nD) (t : Fin cfg0.N) (x : S5000x128.Idx) (i : S50000x128.Idx)
    (h0 : (i 0).val = win0_0.index t (0 : Fin 2) * 5000 + (x 0).val) (h1 : (i 1).val = win0_0.index t (1 : Fin 2) * 128 + (x 1).val) :
    (iblk0 V c 0 t : Vec Ideal S5000x128 .f32) x = (V c (Pipeline.arrRef spec0 0) : S50000x128.Idx → EReal) i := by
  unfold iblk0
  show V c (Pipeline.arrRef spec0 0) (((cfg0.win 0).blk t).view.emb x) = _
  refine congrArg (V c (Pipeline.arrRef spec0 0) : S50000x128.Idx → EReal) (funext fun a => Fin.ext ?_)
  match a with
  | ⟨0, _⟩ => show win0_0.index t (0 : Fin 2) * 5000 + 1 * (x 0).val = (i 0).val; omega
  | ⟨1, _⟩ => show win0_0.index t (1 : Fin 2) * 128 + 1 * (x 1).val = (i 1).val; omega

/-- The same for the column block. -/
theorem blk1_at (c : Dev nD) (t : Fin cfg0.N) (x : S5000x1.Idx) (i : S50000x1.Idx)
    (h0 : (i 0).val = win0_1.index t (0 : Fin 2) * 5000 + (x 0).val) (h1 : (i 1).val = win0_1.index t (1 : Fin 2) * 1 + (x 1).val) :
    (iblk0 V c 1 t : Vec Ideal S5000x1 .f32) x = (V c (Pipeline.arrRef spec0 1) : S50000x1.Idx → EReal) i := by
  unfold iblk0
  show V c (Pipeline.arrRef spec0 1) (((cfg0.win 1).blk t).view.emb x) = _
  refine congrArg (V c (Pipeline.arrRef spec0 1) : S50000x1.Idx → EReal) (funext fun a => Fin.ext ?_)
  match a with
  | ⟨0, _⟩ => show win0_1.index t (0 : Fin 2) * 5000 + 1 * (x 0).val = (i 0).val; omega
  | ⟨1, _⟩ => show win0_1.index t (1 : Fin 2) * 1 + 1 * (x 1).val = (i 1).val; omega

/-- The same for the weight block. -/
theorem blk2_at (c : Dev nD) (t : Fin cfg0.N) (x : S128x128.Idx) (i : S128x128.Idx)
    (h0 : (i 0).val = win0_2.index t (0 : Fin 2) * 128 + (x 0).val) (h1 : (i 1).val = win0_2.index t (1 : Fin 2) * 128 + (x 1).val) :
    (iblk0 V c 2 t : Vec Ideal S128x128 .f32) x = (V c (Pipeline.arrRef spec0 2) : S128x128.Idx → EReal) i := by
  unfold iblk0
  show V c (Pipeline.arrRef spec0 2) (((cfg0.win 2).blk t).view.emb x) = _
  refine congrArg (V c (Pipeline.arrRef spec0 2) : S128x128.Idx → EReal) (funext fun a => Fin.ext ?_)
  match a with
  | ⟨0, _⟩ => show win0_2.index t (0 : Fin 2) * 128 + 1 * (x 0).val = (i 0).val; omega
  | ⟨1, _⟩ => show win0_2.index t (1 : Fin 2) * 128 + 1 * (x 1).val = (i 1).val; omega

/-- The same for the bias block. -/
theorem blk3_at (c : Dev nD) (t : Fin cfg0.N) (x : S1x128.Idx) (i : S1x128.Idx)
    (h0 : (i 0).val = win0_3.index t (0 : Fin 2) * 1 + (x 0).val) (h1 : (i 1).val = win0_3.index t (1 : Fin 2) * 128 + (x 1).val) :
    (iblk0 V c 3 t : Vec Ideal S1x128 .f32) x = (V c (Pipeline.arrRef spec0 3) : S1x128.Idx → EReal) i := by
  unfold iblk0
  show V c (Pipeline.arrRef spec0 3) (((cfg0.win 3).blk t).view.emb x) = _
  refine congrArg (V c (Pipeline.arrRef spec0 3) : S1x128.Idx → EReal) (funext fun a => Fin.ext ?_)
  match a with
  | ⟨0, _⟩ => show win0_3.index t (0 : Fin 2) * 1 + 1 * (x 0).val = (i 0).val; omega
  | ⟨1, _⟩ => show win0_3.index t (1 : Fin 2) * 128 + 1 * (x 1).val = (i 1).val; omega

/-- If four blocks agree with four arrays along row `p` of the blocks and row `r` of the arrays, and along column `q` and
    column `cq`, the body's formula on the blocks at (p, q) is the linear stage of the arrays at (r, cq). -/
theorem lin_of_blocks (A0 : Stages.Feat.Idx → EReal) (A1 : Stages.Col.Idx → EReal) (A2 : Stages.Wt.Idx → EReal) (A3 : Stages.Row.Idx → EReal)
    (B0 : S5000x128.Idx → EReal) (B1 : S5000x1.Idx → EReal) (B2 : S128x128.Idx → EReal) (B3 : S1x128.Idx → EReal)
    (p : Fin 5000) (q : Fin 128) (r : Fin 50000) (cq : Fin 128)
    (h0 : ∀ k : Fin 128, B0 (ix2 p k) = A0 (ix2 r k)) (h1 : B1 (ix2 p (0 : Fin 1)) = A1 (ix2 r (0 : Fin 1)))
    (h2 : ∀ k : Fin 128, B2 (ix2 k q) = A2 (ix2 k cq)) (h3 : B3 (ix2 (0 : Fin 1) q) = A3 (ix2 (0 : Fin 1) cq)) :
    (∑ k : Fin 128, (B0 (ix2 p k) * B1 (ix2 p (0 : Fin 1))) * B2 (ix2 k q)) + B3 (ix2 (0 : Fin 1) q) = Stages.linAt A0 A1 A2 A3 r cq := by
  unfold Stages.linAt
  rw [h1, h3]
  exact congrArg (· + A3 (ix2 (0 : Fin 1) cq)) (Finset.sum_congr rfl fun k _ => by rw [h0 k, h2 k])

/-- At point `t`, entry (p, q) of the body's result on the four blocks is the linear stage of the four arrays at the entry
    (r, cq) of the output array where the block puts it: row `r` is block row index times 5000 plus `p`, and likewise the column. -/
theorem point_eq (c : Dev nD) (t : Fin cfg0.N) (p : Fin 5000) (q : Fin 128) (r : Fin 50000) (cq : Fin 128)
    (hr : r.val = win0_4.index t (0 : Fin 2) * 5000 + p.val) (hc : cq.val = win0_4.index t (1 : Fin 2) * 128 + q.val) :
    k0_pay1 (iblk0 V c 0 t) (iblk0 V c 1 t) (iblk0 V c 2 t) (iblk0 V c 3 t) (ix2 p q)
      = Stages.linAt (V c (Pipeline.arrRef spec0 0)) (V c (Pipeline.arrRef spec0 1)) (V c (Pipeline.arrRef spec0 2)) (V c (Pipeline.arrRef spec0 3)) r cq := by
  obtain ⟨e00, e01, e10, e11, e20, e21, e30, e31, e41, e40⟩ := idx_facts t
  refine (pay_at (iblk0 V c 0 t) (iblk0 V c 1 t) (iblk0 V c 2 t) (iblk0 V c 3 t) p q).trans ?_
  refine lin_of_blocks _ _ _ _ _ _ _ _ p q r cq (fun k => ?_) ?_ (fun k => ?_) ?_
  · refine blk0_at V c t (ix2 p k) (ix2 r k) ?_ ?_
    · show r.val = win0_0.index t (0 : Fin 2) * 5000 + p.val; omega
    · show k.val = win0_0.index t (1 : Fin 2) * 128 + k.val; omega
  · refine blk1_at V c t (ix2 p (0 : Fin 1)) (ix2 r (0 : Fin 1)) ?_ ?_
    · show r.val = win0_1.index t (0 : Fin 2) * 5000 + p.val; omega
    · show (0 : Nat) = win0_1.index t (1 : Fin 2) * 1 + 0; omega
  · refine blk2_at V c t (ix2 k q) (ix2 k cq) ?_ ?_
    · show k.val = win0_2.index t (0 : Fin 2) * 128 + k.val; omega
    · show cq.val = win0_2.index t (1 : Fin 2) * 128 + q.val; omega
  · refine blk3_at V c t (ix2 (0 : Fin 1) q) (ix2 (0 : Fin 1) cq) ?_ ?_
    · show (0 : Nat) = win0_3.index t (0 : Fin 2) * 1 + 0; omega
    · show cq.val = win0_3.index t (1 : Fin 2) * 128 + q.val; omega

/-- What point `t` writes back is block `t` of the linear stage of the four arrays the region finds on entry. -/
theorem flushed_eq (c : Dev nD) (t : Fin cfg0.N) :
    (dat0 V c).flushed 4 t = ((cfg0.win 4).blk t).view.read (Elt Ideal)
      (Stages.lin (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz, View.ld_unit_zero (S := S128x128) hz, View.ld_unit_zero (S := S1x128) hz]
  funext j
  have hj0 : (j 0).val < 5000 := (j 0).isLt
  have hj1 : (j 1).val < 128 := (j 1).isLt
  show k0_pay1 (iblk0 V c 0 t) (iblk0 V c 1 t) (iblk0 V c 2 t) (iblk0 V c 3 t) ((cfg0.win 4).xinj (grid0.coords t) j)
      = Stages.lin (V c (Pipeline.arrRef spec0 0)) (V c (Pipeline.arrRef spec0 1)) (V c (Pipeline.arrRef spec0 2)) (V c (Pipeline.arrRef spec0 3)) (((cfg0.win 4).blk t).view.emb j)
  have e : (cfg0.win 4).xinj (grid0.coords t) j = ix2 (⟨(j 0).val, hj0⟩ : Fin 5000) (⟨(j 1).val, hj1⟩ : Fin 128) :=
    funext fun a => match a with | ⟨0, _⟩ => rfl | ⟨1, _⟩ => rfl
  refine (congrArg (k0_pay1 (iblk0 V c 0 t) (iblk0 V c 1 t) (iblk0 V c 2 t) (iblk0 V c 3 t)) e).trans ?_
  refine point_eq V c t ⟨(j 0).val, hj0⟩ ⟨(j 1).val, hj1⟩ ((((cfg0.win 4).blk t).view.emb j) 0) ((((cfg0.win 4).blk t).view.emb j) 1) ?_ ?_
  · show win0_4.index t (0 : Fin 2) * 5000 + 1 * (j 0).val = win0_4.index t (0 : Fin 2) * 5000 + (j 0).val; omega
  · show win0_4.index t (1 : Fin 2) * 128 + 1 * (j 1).val = win0_4.index t (1 : Fin 2) * 128 + (j 1).val; omega

/-- An index of the output array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v27).slice (win0_4.rect t)).set ↔ _
  rw [View.set_slice_whole, Rect.mem_set_unit]
  exact Iff.rfl

/-- Row `r` of the output array is in the block of the point whose row block index is `r / 5000`: the ten blocks cover the array. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The output array after the region: the linear stage of the four arrays the region finds on entry. -/
theorem arr (c : Dev nD) :
    (dat0 (F := Ideal) V c).arrAt 4 cfg0.N
      = Stages.lin (V c (Pipeline.arrRef spec0 0)) (V c (Pipeline.arrRef spec0 1)) (V c (Pipeline.arrRef spec0 2)) (V c (Pipeline.arrRef spec0 3)) :=
  (dat0 V c).arrAt_eq_of_cover 4 _ (fun t _ => flushed_eq V c t) cover

end Cert.KernelIdeal.Region0

end
-- ==== Proof.Region1.lean ====
/-
  The second matmul region, as one function of whole arrays.

  The region runs over ten row blocks of 5000 nodes. At each block the body scales every row of the 5000x128 feature
  block by that row's entry of a 5000x1 column block, multiplies the result by the whole 128x128 weight matrix into a
  zero accumulator, and adds the 1x128 bias row to every row. At the ideal instance the narrowing to bf16 is the
  identity, so entry (p, q) of the block's result is

      (sum over k of (x[p, k] * s[p, 0]) * w[k, q]) + b[0, q].

  Block t of the feature and column arrays and of the output array starts at row 5000 * t, the weight and bias blocks
  are the whole arrays, and the ten output blocks cover all 50000 rows. So the output array ends holding the linear stage
  of the four arrays the region finds on entry, whatever those arrays are.
-/
import proofs.«178389_j45311904973180_1_alg».proof.Proof.Gen.KernelIdeal.Frame
import proofs.«178389_j45311904973180_1_alg».proof.Proof.Stages
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-! ## The body's result at an entry of the block -/

/-- The left operand's index at output entry `i` and contraction index `k`: row of `i`, column `k`. -/
theorem lhs_coord0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_coord1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right operand's index: row `k`, column of `i`. -/
theorem rhs_coord0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem rhs_coord1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matmul into the zero accumulator, read at entry (p, q): the sum over the 128 contraction positions. -/
theorem matmul_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_coord0 _ _
    | ⟨1, _⟩ => exact (lhs_coord1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_coord0 _ _).trans hk
    | ⟨1, _⟩ => exact rhs_coord1 _ _)
  rw [el, er]

/-- The column block broadcast along the columns, read at (p, k): the column's entry of row p. -/
theorem col_bcast_at (x1 : Vec Ideal S5000x1 .f32) (p : Fin 5000) (k : Fin 128) :
    broadcastTo S5000x128 (shapeCast S5000x1 x1 shapeCasts_S5000x1_S5000x1) broadcasts_S5000x1_S5000x128 (ix2 p k) = x1 (ix2 p (0 : Fin 1)) := by
  rw [shapeCast_self]
  exact broadcastTo_apply x1 broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else k.val; rw [if_pos rfl])

/-- The bias row broadcast along the rows, read at (p, q): the row's entry of column q. -/
theorem row_bcast_at (x3 : Vec Ideal S1x128 .f32) (p : Fin 5000) (q : Fin 128) :
    broadcastTo S5000x128 (shapeCast S1x128 x3 shapeCasts_S1x128_S1x128) broadcasts_S1x128_S5000x128 (ix2 p q) = x3 (ix2 (0 : Fin 1) q) := by
  rw [shapeCast_self]
  exact broadcastTo_apply x3 broadcasts_S1x128_S5000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The body's result at entry (p, q) of the block, from the four blocks it loads. -/
theorem pay_at (x0 : Vec Ideal S5000x128 .f32) (x1 : Vec Ideal S5000x1 .f32) (x2 : Vec Ideal S128x128 .f32) (x3 : Vec Ideal S1x128 .f32)
    (p : Fin 5000) (q : Fin 128) :
    k1_pay1 x0 x1 x2 x3 (ix2 p q)
      = (∑ k : Fin 128, (x0 (ix2 p k) * x1 (ix2 p (0 : Fin 1))) * x2 (ix2 k q)) + x3 (ix2 (0 : Fin 1) q) := by
  unfold k1_pay1
  refine (addf_apply _ _ (ix2 p q)).trans ?_
  refine congrArg₂ (· + ·) ?_ (row_bcast_at x3 p q)
  refine (matmul_at _ _ p q).trans ?_
  refine Finset.sum_congr rfl fun k _ => ?_
  show x0 (ix2 p k) * broadcastTo S5000x128 (shapeCast S5000x1 x1 shapeCasts_S5000x1_S5000x1) broadcasts_S5000x1_S5000x128 (ix2 p k) * x2 (ix2 k q) = _
  rw [col_bcast_at]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block indices over the ten points: the feature, column and output blocks move together along the rows and sit at
    column block 0; the weight and bias blocks are always block (0, 0); the row block index is at most 9. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every one of the ten row blocks of the output is some point's. -/
theorem idx_onto : ∀ b : Fin 10, ∃ t : Fin cfg1.N, win1_4.index t = ![b.val, 0] :=
  (by decide +kernel : ∀ b : Fin 10, ∃ t : Fin grid1.N, win1_4.index t = ![b.val, 0])

/-- Entry `x` of the feature block at point `t` is the array's entry at block index times block size plus `x`. -/
theorem blk0_at (c : Dev nD) (t : Fin cfg1.N) (x : S5000x128.Idx) (i : S50000x128.Idx)
    (h0 : (i 0).val = win1_0.index t (0 : Fin 2) * 5000 + (x 0).val) (h1 : (i 1).val = win1_0.index t (1 : Fin 2) * 128 + (x 1).val) :
    (iblk1 V c 0 t : Vec Ideal S5000x128 .f32) x = (V c (Pipeline.arrRef spec1 0) : S50000x128.Idx → EReal) i := by
  unfold iblk1
  show V c (Pipeline.arrRef spec1 0) (((cfg1.win 0).blk t).view.emb x) = _
  refine congrArg (V c (Pipeline.arrRef spec1 0) : S50000x128.Idx → EReal) (funext fun a => Fin.ext ?_)
  match a with
  | ⟨0, _⟩ => show win1_0.index t (0 : Fin 2) * 5000 + 1 * (x 0).val = (i 0).val; omega
  | ⟨1, _⟩ => show win1_0.index t (1 : Fin 2) * 128 + 1 * (x 1).val = (i 1).val; omega

/-- The same for the column block. -/
theorem blk1_at (c : Dev nD) (t : Fin cfg1.N) (x : S5000x1.Idx) (i : S50000x1.Idx)
    (h0 : (i 0).val = win1_1.index t (0 : Fin 2) * 5000 + (x 0).val) (h1 : (i 1).val = win1_1.index t (1 : Fin 2) * 1 + (x 1).val) :
    (iblk1 V c 1 t : Vec Ideal S5000x1 .f32) x = (V c (Pipeline.arrRef spec1 1) : S50000x1.Idx → EReal) i := by
  unfold iblk1
  show V c (Pipeline.arrRef spec1 1) (((cfg1.win 1).blk t).view.emb x) = _
  refine congrArg (V c (Pipeline.arrRef spec1 1) : S50000x1.Idx → EReal) (funext fun a => Fin.ext ?_)
  match a with
  | ⟨0, _⟩ => show win1_1.index t (0 : Fin 2) * 5000 + 1 * (x 0).val = (i 0).val; omega
  | ⟨1, _⟩ => show win1_1.index t (1 : Fin 2) * 1 + 1 * (x 1).val = (i 1).val; omega

/-- The same for the weight block. -/
theorem blk2_at (c : Dev nD) (t : Fin cfg1.N) (x : S128x128.Idx) (i : S128x128.Idx)
    (h0 : (i 0).val = win1_2.index t (0 : Fin 2) * 128 + (x 0).val) (h1 : (i 1).val = win1_2.index t (1 : Fin 2) * 128 + (x 1).val) :
    (iblk1 V c 2 t : Vec Ideal S128x128 .f32) x = (V c (Pipeline.arrRef spec1 2) : S128x128.Idx → EReal) i := by
  unfold iblk1
  show V c (Pipeline.arrRef spec1 2) (((cfg1.win 2).blk t).view.emb x) = _
  refine congrArg (V c (Pipeline.arrRef spec1 2) : S128x128.Idx → EReal) (funext fun a => Fin.ext ?_)
  match a with
  | ⟨0, _⟩ => show win1_2.index t (0 : Fin 2) * 128 + 1 * (x 0).val = (i 0).val; omega
  | ⟨1, _⟩ => show win1_2.index t (1 : Fin 2) * 128 + 1 * (x 1).val = (i 1).val; omega

/-- The same for the bias block. -/
theorem blk3_at (c : Dev nD) (t : Fin cfg1.N) (x : S1x128.Idx) (i : S1x128.Idx)
    (h0 : (i 0).val = win1_3.index t (0 : Fin 2) * 1 + (x 0).val) (h1 : (i 1).val = win1_3.index t (1 : Fin 2) * 128 + (x 1).val) :
    (iblk1 V c 3 t : Vec Ideal S1x128 .f32) x = (V c (Pipeline.arrRef spec1 3) : S1x128.Idx → EReal) i := by
  unfold iblk1
  show V c (Pipeline.arrRef spec1 3) (((cfg1.win 3).blk t).view.emb x) = _
  refine congrArg (V c (Pipeline.arrRef spec1 3) : S1x128.Idx → EReal) (funext fun a => Fin.ext ?_)
  match a with
  | ⟨0, _⟩ => show win1_3.index t (0 : Fin 2) * 1 + 1 * (x 0).val = (i 0).val; omega
  | ⟨1, _⟩ => show win1_3.index t (1 : Fin 2) * 128 + 1 * (x 1).val = (i 1).val; omega

/-- If four blocks agree with four arrays along row `p` of the blocks and row `r` of the arrays, and along column `q` and
    column `cq`, the body's formula on the blocks at (p, q) is the linear stage of the arrays at (r, cq). -/
theorem lin_of_blocks (A0 : Stages.Feat.Idx → EReal) (A1 : Stages.Col.Idx → EReal) (A2 : Stages.Wt.Idx → EReal) (A3 : Stages.Row.Idx → EReal)
    (B0 : S5000x128.Idx → EReal) (B1 : S5000x1.Idx → EReal) (B2 : S128x128.Idx → EReal) (B3 : S1x128.Idx → EReal)
    (p : Fin 5000) (q : Fin 128) (r : Fin 50000) (cq : Fin 128)
    (h0 : ∀ k : Fin 128, B0 (ix2 p k) = A0 (ix2 r k)) (h1 : B1 (ix2 p (0 : Fin 1)) = A1 (ix2 r (0 : Fin 1)))
    (h2 : ∀ k : Fin 128, B2 (ix2 k q) = A2 (ix2 k cq)) (h3 : B3 (ix2 (0 : Fin 1) q) = A3 (ix2 (0 : Fin 1) cq)) :
    (∑ k : Fin 128, (B0 (ix2 p k) * B1 (ix2 p (0 : Fin 1))) * B2 (ix2 k q)) + B3 (ix2 (0 : Fin 1) q) = Stages.linAt A0 A1 A2 A3 r cq := by
  unfold Stages.linAt
  rw [h1, h3]
  exact congrArg (· + A3 (ix2 (0 : Fin 1) cq)) (Finset.sum_congr rfl fun k _ => by rw [h0 k, h2 k])

/-- At point `t`, entry (p, q) of the body's result on the four blocks is the linear stage of the four arrays at the entry
    (r, cq) of the output array where the block puts it: row `r` is block row index times 5000 plus `p`, and likewise the column. -/
theorem point_eq (c : Dev nD) (t : Fin cfg1.N) (p : Fin 5000) (q : Fin 128) (r : Fin 50000) (cq : Fin 128)
    (hr : r.val = win1_4.index t (0 : Fin 2) * 5000 + p.val) (hc : cq.val = win1_4.index t (1 : Fin 2) * 128 + q.val) :
    k1_pay1 (iblk1 V c 0 t) (iblk1 V c 1 t) (iblk1 V c 2 t) (iblk1 V c 3 t) (ix2 p q)
      = Stages.linAt (V c (Pipeline.arrRef spec1 0)) (V c (Pipeline.arrRef spec1 1)) (V c (Pipeline.arrRef spec1 2)) (V c (Pipeline.arrRef spec1 3)) r cq := by
  obtain ⟨e00, e01, e10, e11, e20, e21, e30, e31, e41, e40⟩ := idx_facts t
  refine (pay_at (iblk1 V c 0 t) (iblk1 V c 1 t) (iblk1 V c 2 t) (iblk1 V c 3 t) p q).trans ?_
  refine lin_of_blocks _ _ _ _ _ _ _ _ p q r cq (fun k => ?_) ?_ (fun k => ?_) ?_
  · refine blk0_at V c t (ix2 p k) (ix2 r k) ?_ ?_
    · show r.val = win1_0.index t (0 : Fin 2) * 5000 + p.val; omega
    · show k.val = win1_0.index t (1 : Fin 2) * 128 + k.val; omega
  · refine blk1_at V c t (ix2 p (0 : Fin 1)) (ix2 r (0 : Fin 1)) ?_ ?_
    · show r.val = win1_1.index t (0 : Fin 2) * 5000 + p.val; omega
    · show (0 : Nat) = win1_1.index t (1 : Fin 2) * 1 + 0; omega
  · refine blk2_at V c t (ix2 k q) (ix2 k cq) ?_ ?_
    · show k.val = win1_2.index t (0 : Fin 2) * 128 + k.val; omega
    · show cq.val = win1_2.index t (1 : Fin 2) * 128 + q.val; omega
  · refine blk3_at V c t (ix2 (0 : Fin 1) q) (ix2 (0 : Fin 1) cq) ?_ ?_
    · show (0 : Nat) = win1_3.index t (0 : Fin 2) * 1 + 0; omega
    · show cq.val = win1_3.index t (1 : Fin 2) * 128 + q.val; omega

/-- What point `t` writes back is block `t` of the linear stage of the four arrays the region finds on entry. -/
theorem flushed_eq (c : Dev nD) (t : Fin cfg1.N) :
    (dat1 V c).flushed 4 t = ((cfg1.win 4).blk t).view.read (Elt Ideal)
      (Stages.lin (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128x128) hz, View.ld_unit_zero (S := S1x128) hz]
  funext j
  have hj0 : (j 0).val < 5000 := (j 0).isLt
  have hj1 : (j 1).val < 128 := (j 1).isLt
  show k1_pay1 (iblk1 V c 0 t) (iblk1 V c 1 t) (iblk1 V c 2 t) (iblk1 V c 3 t) ((cfg1.win 4).xinj (grid1.coords t) j)
      = Stages.lin (V c (Pipeline.arrRef spec1 0)) (V c (Pipeline.arrRef spec1 1)) (V c (Pipeline.arrRef spec1 2)) (V c (Pipeline.arrRef spec1 3)) (((cfg1.win 4).blk t).view.emb j)
  have e : (cfg1.win 4).xinj (grid1.coords t) j = ix2 (⟨(j 0).val, hj0⟩ : Fin 5000) (⟨(j 1).val, hj1⟩ : Fin 128) :=
    funext fun a => match a with | ⟨0, _⟩ => rfl | ⟨1, _⟩ => rfl
  refine (congrArg (k1_pay1 (iblk1 V c 0 t) (iblk1 V c 1 t) (iblk1 V c 2 t) (iblk1 V c 3 t)) e).trans ?_
  refine point_eq V c t ⟨(j 0).val, hj0⟩ ⟨(j 1).val, hj1⟩ ((((cfg1.win 4).blk t).view.emb j) 0) ((((cfg1.win 4).blk t).view.emb j) 1) ?_ ?_
  · show win1_4.index t (0 : Fin 2) * 5000 + 1 * (j 0).val = win1_4.index t (0 : Fin 2) * 5000 + (j 0).val; omega
  · show win1_4.index t (1 : Fin 2) * 128 + 1 * (j 1).val = win1_4.index t (1 : Fin 2) * 128 + (j 1).val; omega

/-- An index of the output array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v29).slice (win1_4.rect t)).set ↔ _
  rw [View.set_slice_whole, Rect.mem_set_unit]
  exact Iff.rfl

/-- Row `r` of the output array is in the block of the point whose row block index is `r / 5000`: the ten blocks cover the array. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: the linear stage of the four arrays the region finds on entry. -/
theorem arr (c : Dev nD) :
    (dat1 (F := Ideal) V c).arrAt 4 cfg1.N
      = Stages.lin (V c (Pipeline.arrRef spec1 0)) (V c (Pipeline.arrRef spec1 1)) (V c (Pipeline.arrRef spec1 2)) (V c (Pipeline.arrRef spec1 3)) :=
  (dat1 V c).arrAt_eq_of_cover 4 _ (fun t _ => flushed_eq V c t) cover

end Cert.KernelIdeal.Region1

end
-- ==== Proof.Region2.lean ====
/-
  The first pointwise region of the kernel, read as one function of whole arrays.

  The region walks the 50000 node rows in ten blocks of 5000. At each block it takes the block's rows of the
  aggregated features, scales row `p` by the `p`-th entry of the block's column of per-node factors, adds the bias row
  (the same 128 entries at every block), and clamps below at the word of `+0.0`. Row `p` of block `t` is row
  `t * 5000 + p` of the array, so what block `t` writes is exactly block `t` of the post-aggregation stage
      out[r, c] = max (a[r, c] * s[r] + b[c]) 0
  of the three whole arrays; the ten blocks tile the 50000 rows (row `r` is in block `r / 5000`), so the array the
  region leaves is that stage everywhere. Nothing here needs the entries to be finite, and the zero word is never
  evaluated: it is the same word on both sides.
-/
import proofs.«178389_j45311904973180_1_alg».proof.Proof.Gen.KernelIdeal.Frame
import proofs.«178389_j45311904973180_1_alg».proof.Proof.Stages
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Region2

open Idealize.ShloMosaic Idealize.ShloMosaic.TcCoe Idealize.ShloMosaic.ValueIdx
open Idealize.ShloMosaic.Pipeline (Dat Cfg Window)

/-- The body's value at row `p`, column `q` of a block: the block's entry times the row's factor, plus the
    column's bias, clamped below at the word of `+0.0`. The two broadcasts read the factor column at `(p, 0)` and the
    bias row at `(0, q)`; the casts to the same shape are identities. -/
theorem pay (x0 : Vec Ideal S5000x128 .f32) (x1 : Vec Ideal S5000x1 .f32) (x2 : Vec Ideal S1x128 .f32)
    (p : Fin 5000) (q : Fin 128) :
    Gen.k2_pay1 x0 x1 x2 (ix2 p q)
      = max (x0 (ix2 p q) * x1 (ix2 p (0 : Fin 1)) + x2 (ix2 (0 : Fin 1) q)) Cert.Stages.zeroW := by
  unfold Gen.k2_pay1
  rw [maximumf_apply, addf_apply, mulf_apply, shapeCast_self, shapeCast_self, shapeCast_self, broadcast_apply,
    broadcastTo_1b_ab_apply]
  have hc : broadcastTo S5000x128 x1 Gen.broadcasts_S5000x1_S5000x128 (ix2 p q) = x1 (ix2 p (0 : Fin 1)) := by
    refine broadcastTo_apply x1 Gen.broadcasts_S5000x1_S5000x128 (ix2 p q) (ix2 p (0 : Fin 1)) fun ax => ?_
    match ax with
    | ⟨0, _⟩ => rfl
    | ⟨1, _⟩ => rfl
  rw [hc]
  rfl

/-- The stage at an index given by its coordinates: when the four indices read are `(r, q)`, `(r, 0)`, `(0, q)` and
    `(r, q)`, the clamped sum of their entries is the stage's entry. -/
theorem stage_at (A : S50000x128.Idx → EReal) (S : S50000x1.Idx → EReal) (B : S1x128.Idx → EReal)
    (a0 a3 : S50000x128.Idx) (a1 : S50000x1.Idx) (a2 : S1x128.Idx) (r : Fin 50000) (q : Fin 128)
    (h0 : a0 = ix2 r q) (h1 : a1 = ix2 r (0 : Fin 1)) (h2 : a2 = ix2 (0 : Fin 1) q) (h3 : a3 = ix2 r q) :
    max (A a0 * S a1 + B a2) Cert.Stages.zeroW = Cert.Stages.post A S B a3 := by
  subst h0 h1 h2 h3; rfl

variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-- The block indices over the grid, decided point by point: the two moving inputs sit at the output's row block and
    at column block 0; the bias is always its one block; the output's row block is at most 9 and its column block 0. -/
theorem idx_facts : ∀ t : Fin cfg2.N,
    win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 9 :=
  (by decide +kernel : ∀ t : Fin grid2.N, _)

/-- What a point writes back is that point's block of the whole-array stage: inside the block, row `p` of the
    point's row block is row `(block index) * 5000 + p` of each moving array, and the bias row is the whole bias. -/
theorem flushed_eq (c : Dev nD) (t : Fin cfg2.N) :
    (Gen.dat2 (F := Ideal) V c).flushed 3 t
      = ((cfg2.win 3).blk t).view.read (Elt Ideal)
          (Cert.Stages.post (V c (Pipeline.arrRef spec2 0)) (V c (Pipeline.arrRef spec2 1)) (V c (Pipeline.arrRef spec2 2))) := by
  show (cfg2.win 3).cut (grid2.coords t) ((Gen.dat2 (F := Ideal) V c).after 3 t) = _
  rw [Gen.after2_3]
  unfold Gen.out2_3
  rw [View.canon_unit_zero hz]
  simp only [View.ld_unit_zero (S := S5000x128) hz, View.ld_unit_zero (S := S5000x1) hz, View.ld_unit_zero (S := S1x128) hz]
  obtain ⟨e00, e01, e10, e11, e20, e21, e31, e30⟩ := idx_facts t
  funext j
  obtain ⟨p, q, rfl⟩ : ∃ (p : Fin 5000) (q : Fin 128), j = ix2 p q := ⟨j 0, j 1, eq_ix2 j⟩
  refine (pay (Gen.iblk2 V c 0 t) (Gen.iblk2 V c 1 t) (Gen.iblk2 V c 2 t) p q).trans ?_
  unfold Gen.iblk2
  have hp : p.val < 5000 := p.isLt
  have hr : win2_3.index t (0 : Fin 2) * 5000 + p.val < 50000 := by omega
  refine stage_at (V c (Pipeline.arrRef spec2 0)) (V c (Pipeline.arrRef spec2 1)) (V c (Pipeline.arrRef spec2 2))
    (((cfg2.win 0).blk t).view.emb (ix2 p q)) (((cfg2.win 3).blk t).view.emb (ix2 p q))
    (((cfg2.win 1).blk t).view.emb (ix2 p (0 : Fin 1))) (((cfg2.win 2).blk t).view.emb (ix2 (0 : Fin 1) q))
    ⟨win2_3.index t (0 : Fin 2) * 5000 + p.val, hr⟩ q ?_ ?_ ?_ ?_
  · funext a; apply Fin.ext
    match a with
    | ⟨0, _⟩ => show win2_0.index t (0 : Fin 2) * 5000 + 1 * p.val = win2_3.index t (0 : Fin 2) * 5000 + p.val; omega
    | ⟨1, _⟩ => show win2_0.index t (1 : Fin 2) * 128 + 1 * q.val = q.val; omega
  · funext a; apply Fin.ext
    match a with
    | ⟨0, _⟩ => show win2_1.index t (0 : Fin 2) * 5000 + 1 * p.val = win2_3.index t (0 : Fin 2) * 5000 + p.val; omega
    | ⟨1, _⟩ => show win2_1.index t (1 : Fin 2) * 1 + 1 * 0 = 0; omega
  · funext a; apply Fin.ext
    match a with
    | ⟨0, _⟩ => show win2_2.index t (0 : Fin 2) * 1 + 1 * 0 = 0; omega
    | ⟨1, _⟩ => show win2_2.index t (1 : Fin 2) * 128 + 1 * q.val = q.val; omega
  · funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 128 + 1 * q.val = q.val; omega

/-- An index of the array lies in a point's block exactly when each coordinate lies in the block's range. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v41).slice (win2_3.rect t)).set ↔ _
  rw [View.set_slice_whole, Rect.mem_set_unit]
  exact Iff.rfl

/-- Every one of the ten row blocks is some point's block. -/
theorem idx_onto : ∀ b : Fin 10, ∃ t : Fin cfg2.N, win2_3.index t (0 : Fin 2) = b.val ∧ win2_3.index t (1 : Fin 2) = 0 :=
  (by decide +kernel : ∀ b : Fin 10, ∃ t : Fin grid2.N, win2_3.index t (0 : Fin 2) = b.val ∧ win2_3.index t (1 : Fin 2) = 0)

/-- The blocks cover the array: row `r` lies in block `r / 5000`. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, q0, q1⟩ := idx_onto ⟨(i 0).val / 5000, by omega⟩
  have q0' : win2_3.index t (0 : Fin 2) = (i 0).val / 5000 := q0
  refine ⟨t, Gen.flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The array the region leaves: the post-aggregation stage of the three arrays the region finds. -/
theorem arr (c : Dev nD) :
    (Gen.dat2 (F := Ideal) V c).arrAt 3 cfg2.N
      = Cert.Stages.post (V c (Pipeline.arrRef spec2 0)) (V c (Pipeline.arrRef spec2 1)) (V c (Pipeline.arrRef spec2 2)) :=
  (Gen.dat2 (F := Ideal) V c).arrAt_eq_of_cover 3 _ (fun t _ => flushed_eq V c t) cover

end Cert.KernelIdeal.Region2

end
-- ==== Proof.Region3.lean ====
/-
  The third matmul region, as one function of whole arrays.

  The region runs over ten row blocks of 5000 nodes. At each block the body scales every row of the 5000x128 feature
  block by that row's entry of a 5000x1 column block, multiplies the result by the whole 128x128 weight matrix into a
  zero accumulator, and adds the 1x128 bias row to every row. At the ideal instance the narrowing to bf16 is the
  identity, so entry (p, q) of the block's result is

      (sum over k of (x[p, k] * s[p, 0]) * w[k, q]) + b[0, q].

  Block t of the feature and column arrays and of the output array starts at row 5000 * t, the weight and bias blocks
  are the whole arrays, and the ten output blocks cover all 50000 rows. So the output array ends holding the linear stage
  of the four arrays the region finds on entry, whatever those arrays are.
-/
import proofs.«178389_j45311904973180_1_alg».proof.Proof.Gen.KernelIdeal.Frame
import proofs.«178389_j45311904973180_1_alg».proof.Proof.Stages
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

/-! ## The body's result at an entry of the block -/

/-- The left operand's index at output entry `i` and contraction index `k`: row of `i`, column `k`. -/
theorem lhs_coord0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_coord1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right operand's index: row `k`, column of `i`. -/
theorem rhs_coord0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem rhs_coord1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matmul into the zero accumulator, read at entry (p, q): the sum over the 128 contraction positions. -/
theorem matmul_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_coord0 _ _
    | ⟨1, _⟩ => exact (lhs_coord1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_coord0 _ _).trans hk
    | ⟨1, _⟩ => exact rhs_coord1 _ _)
  rw [el, er]

/-- The column block broadcast along the columns, read at (p, k): the column's entry of row p. -/
theorem col_bcast_at (x1 : Vec Ideal S5000x1 .f32) (p : Fin 5000) (k : Fin 128) :
    broadcastTo S5000x128 (shapeCast S5000x1 x1 shapeCasts_S5000x1_S5000x1) broadcasts_S5000x1_S5000x128 (ix2 p k) = x1 (ix2 p (0 : Fin 1)) := by
  rw [shapeCast_self]
  exact broadcastTo_apply x1 broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else k.val; rw [if_pos rfl])

/-- The bias row broadcast along the rows, read at (p, q): the row's entry of column q. -/
theorem row_bcast_at (x3 : Vec Ideal S1x128 .f32) (p : Fin 5000) (q : Fin 128) :
    broadcastTo S5000x128 (shapeCast S1x128 x3 shapeCasts_S1x128_S1x128) broadcasts_S1x128_S5000x128 (ix2 p q) = x3 (ix2 (0 : Fin 1) q) := by
  rw [shapeCast_self]
  exact broadcastTo_apply x3 broadcasts_S1x128_S5000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The body's result at entry (p, q) of the block, from the four blocks it loads. -/
theorem pay_at (x0 : Vec Ideal S5000x128 .f32) (x1 : Vec Ideal S5000x1 .f32) (x2 : Vec Ideal S128x128 .f32) (x3 : Vec Ideal S1x128 .f32)
    (p : Fin 5000) (q : Fin 128) :
    k3_pay1 x0 x1 x2 x3 (ix2 p q)
      = (∑ k : Fin 128, (x0 (ix2 p k) * x1 (ix2 p (0 : Fin 1))) * x2 (ix2 k q)) + x3 (ix2 (0 : Fin 1) q) := by
  unfold k3_pay1
  refine (addf_apply _ _ (ix2 p q)).trans ?_
  refine congrArg₂ (· + ·) ?_ (row_bcast_at x3 p q)
  refine (matmul_at _ _ p q).trans ?_
  refine Finset.sum_congr rfl fun k _ => ?_
  show shapeCast S5000x128 x0 shapeCasts_S5000x128_S5000x128 (ix2 p k) * broadcastTo S5000x128 (shapeCast S5000x1 x1 shapeCasts_S5000x1_S5000x1) broadcasts_S5000x1_S5000x128 (ix2 p k) * x2 (ix2 k q) = _
  rw [col_bcast_at, shapeCast_self]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block indices over the ten points: the feature, column and output blocks move together along the rows and sit at
    column block 0; the weight and bias blocks are always block (0, 0); the row block index is at most 9. -/
theorem idx_facts : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 9 :=
  (by decide +kernel : ∀ t : Fin grid3.N, _)

/-- Every one of the ten row blocks of the output is some point's. -/
theorem idx_onto : ∀ b : Fin 10, ∃ t : Fin cfg3.N, win3_4.index t = ![b.val, 0] :=
  (by decide +kernel : ∀ b : Fin 10, ∃ t : Fin grid3.N, win3_4.index t = ![b.val, 0])

/-- Entry `x` of the feature block at point `t` is the array's entry at block index times block size plus `x`. -/
theorem blk0_at (c : Dev nD) (t : Fin cfg3.N) (x : S5000x128.Idx) (i : S50000x128.Idx)
    (h0 : (i 0).val = win3_0.index t (0 : Fin 2) * 5000 + (x 0).val) (h1 : (i 1).val = win3_0.index t (1 : Fin 2) * 128 + (x 1).val) :
    (iblk3 V c 0 t : Vec Ideal S5000x128 .f32) x = (V c (Pipeline.arrRef spec3 0) : S50000x128.Idx → EReal) i := by
  unfold iblk3
  show V c (Pipeline.arrRef spec3 0) (((cfg3.win 0).blk t).view.emb x) = _
  refine congrArg (V c (Pipeline.arrRef spec3 0) : S50000x128.Idx → EReal) (funext fun a => Fin.ext ?_)
  match a with
  | ⟨0, _⟩ => show win3_0.index t (0 : Fin 2) * 5000 + 1 * (x 0).val = (i 0).val; omega
  | ⟨1, _⟩ => show win3_0.index t (1 : Fin 2) * 128 + 1 * (x 1).val = (i 1).val; omega

/-- The same for the column block. -/
theorem blk1_at (c : Dev nD) (t : Fin cfg3.N) (x : S5000x1.Idx) (i : S50000x1.Idx)
    (h0 : (i 0).val = win3_1.index t (0 : Fin 2) * 5000 + (x 0).val) (h1 : (i 1).val = win3_1.index t (1 : Fin 2) * 1 + (x 1).val) :
    (iblk3 V c 1 t : Vec Ideal S5000x1 .f32) x = (V c (Pipeline.arrRef spec3 1) : S50000x1.Idx → EReal) i := by
  unfold iblk3
  show V c (Pipeline.arrRef spec3 1) (((cfg3.win 1).blk t).view.emb x) = _
  refine congrArg (V c (Pipeline.arrRef spec3 1) : S50000x1.Idx → EReal) (funext fun a => Fin.ext ?_)
  match a with
  | ⟨0, _⟩ => show win3_1.index t (0 : Fin 2) * 5000 + 1 * (x 0).val = (i 0).val; omega
  | ⟨1, _⟩ => show win3_1.index t (1 : Fin 2) * 1 + 1 * (x 1).val = (i 1).val; omega

/-- The same for the weight block. -/
theorem blk2_at (c : Dev nD) (t : Fin cfg3.N) (x : S128x128.Idx) (i : S128x128.Idx)
    (h0 : (i 0).val = win3_2.index t (0 : Fin 2) * 128 + (x 0).val) (h1 : (i 1).val = win3_2.index t (1 : Fin 2) * 128 + (x 1).val) :
    (iblk3 V c 2 t : Vec Ideal S128x128 .f32) x = (V c (Pipeline.arrRef spec3 2) : S128x128.Idx → EReal) i := by
  unfold iblk3
  show V c (Pipeline.arrRef spec3 2) (((cfg3.win 2).blk t).view.emb x) = _
  refine congrArg (V c (Pipeline.arrRef spec3 2) : S128x128.Idx → EReal) (funext fun a => Fin.ext ?_)
  match a with
  | ⟨0, _⟩ => show win3_2.index t (0 : Fin 2) * 128 + 1 * (x 0).val = (i 0).val; omega
  | ⟨1, _⟩ => show win3_2.index t (1 : Fin 2) * 128 + 1 * (x 1).val = (i 1).val; omega

/-- The same for the bias block. -/
theorem blk3_at (c : Dev nD) (t : Fin cfg3.N) (x : S1x128.Idx) (i : S1x128.Idx)
    (h0 : (i 0).val = win3_3.index t (0 : Fin 2) * 1 + (x 0).val) (h1 : (i 1).val = win3_3.index t (1 : Fin 2) * 128 + (x 1).val) :
    (iblk3 V c 3 t : Vec Ideal S1x128 .f32) x = (V c (Pipeline.arrRef spec3 3) : S1x128.Idx → EReal) i := by
  unfold iblk3
  show V c (Pipeline.arrRef spec3 3) (((cfg3.win 3).blk t).view.emb x) = _
  refine congrArg (V c (Pipeline.arrRef spec3 3) : S1x128.Idx → EReal) (funext fun a => Fin.ext ?_)
  match a with
  | ⟨0, _⟩ => show win3_3.index t (0 : Fin 2) * 1 + 1 * (x 0).val = (i 0).val; omega
  | ⟨1, _⟩ => show win3_3.index t (1 : Fin 2) * 128 + 1 * (x 1).val = (i 1).val; omega

/-- If four blocks agree with four arrays along row `p` of the blocks and row `r` of the arrays, and along column `q` and
    column `cq`, the body's formula on the blocks at (p, q) is the linear stage of the arrays at (r, cq). -/
theorem lin_of_blocks (A0 : Stages.Feat.Idx → EReal) (A1 : Stages.Col.Idx → EReal) (A2 : Stages.Wt.Idx → EReal) (A3 : Stages.Row.Idx → EReal)
    (B0 : S5000x128.Idx → EReal) (B1 : S5000x1.Idx → EReal) (B2 : S128x128.Idx → EReal) (B3 : S1x128.Idx → EReal)
    (p : Fin 5000) (q : Fin 128) (r : Fin 50000) (cq : Fin 128)
    (h0 : ∀ k : Fin 128, B0 (ix2 p k) = A0 (ix2 r k)) (h1 : B1 (ix2 p (0 : Fin 1)) = A1 (ix2 r (0 : Fin 1)))
    (h2 : ∀ k : Fin 128, B2 (ix2 k q) = A2 (ix2 k cq)) (h3 : B3 (ix2 (0 : Fin 1) q) = A3 (ix2 (0 : Fin 1) cq)) :
    (∑ k : Fin 128, (B0 (ix2 p k) * B1 (ix2 p (0 : Fin 1))) * B2 (ix2 k q)) + B3 (ix2 (0 : Fin 1) q) = Stages.linAt A0 A1 A2 A3 r cq := by
  unfold Stages.linAt
  rw [h1, h3]
  exact congrArg (· + A3 (ix2 (0 : Fin 1) cq)) (Finset.sum_congr rfl fun k _ => by rw [h0 k, h2 k])

/-- At point `t`, entry (p, q) of the body's result on the four blocks is the linear stage of the four arrays at the entry
    (r, cq) of the output array where the block puts it: row `r` is block row index times 5000 plus `p`, and likewise the column. -/
theorem point_eq (c : Dev nD) (t : Fin cfg3.N) (p : Fin 5000) (q : Fin 128) (r : Fin 50000) (cq : Fin 128)
    (hr : r.val = win3_4.index t (0 : Fin 2) * 5000 + p.val) (hc : cq.val = win3_4.index t (1 : Fin 2) * 128 + q.val) :
    k3_pay1 (iblk3 V c 0 t) (iblk3 V c 1 t) (iblk3 V c 2 t) (iblk3 V c 3 t) (ix2 p q)
      = Stages.linAt (V c (Pipeline.arrRef spec3 0)) (V c (Pipeline.arrRef spec3 1)) (V c (Pipeline.arrRef spec3 2)) (V c (Pipeline.arrRef spec3 3)) r cq := by
  obtain ⟨e00, e01, e10, e11, e20, e21, e30, e31, e41, e40⟩ := idx_facts t
  refine (pay_at (iblk3 V c 0 t) (iblk3 V c 1 t) (iblk3 V c 2 t) (iblk3 V c 3 t) p q).trans ?_
  refine lin_of_blocks _ _ _ _ _ _ _ _ p q r cq (fun k => ?_) ?_ (fun k => ?_) ?_
  · refine blk0_at V c t (ix2 p k) (ix2 r k) ?_ ?_
    · show r.val = win3_0.index t (0 : Fin 2) * 5000 + p.val; omega
    · show k.val = win3_0.index t (1 : Fin 2) * 128 + k.val; omega
  · refine blk1_at V c t (ix2 p (0 : Fin 1)) (ix2 r (0 : Fin 1)) ?_ ?_
    · show r.val = win3_1.index t (0 : Fin 2) * 5000 + p.val; omega
    · show (0 : Nat) = win3_1.index t (1 : Fin 2) * 1 + 0; omega
  · refine blk2_at V c t (ix2 k q) (ix2 k cq) ?_ ?_
    · show k.val = win3_2.index t (0 : Fin 2) * 128 + k.val; omega
    · show cq.val = win3_2.index t (1 : Fin 2) * 128 + q.val; omega
  · refine blk3_at V c t (ix2 (0 : Fin 1) q) (ix2 (0 : Fin 1) cq) ?_ ?_
    · show (0 : Nat) = win3_3.index t (0 : Fin 2) * 1 + 0; omega
    · show cq.val = win3_3.index t (1 : Fin 2) * 128 + q.val; omega

/-- What point `t` writes back is block `t` of the linear stage of the four arrays the region finds on entry. -/
theorem flushed_eq (c : Dev nD) (t : Fin cfg3.N) :
    (dat3 V c).flushed 4 t = ((cfg3.win 4).blk t).view.read (Elt Ideal)
      (Stages.lin (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S128x128) hz, View.ld_unit_zero (S := S1x128) hz]
  funext j
  have hj0 : (j 0).val < 5000 := (j 0).isLt
  have hj1 : (j 1).val < 128 := (j 1).isLt
  show k3_pay1 (iblk3 V c 0 t) (iblk3 V c 1 t) (iblk3 V c 2 t) (iblk3 V c 3 t) ((cfg3.win 4).xinj (grid3.coords t) j)
      = Stages.lin (V c (Pipeline.arrRef spec3 0)) (V c (Pipeline.arrRef spec3 1)) (V c (Pipeline.arrRef spec3 2)) (V c (Pipeline.arrRef spec3 3)) (((cfg3.win 4).blk t).view.emb j)
  have e : (cfg3.win 4).xinj (grid3.coords t) j = ix2 (⟨(j 0).val, hj0⟩ : Fin 5000) (⟨(j 1).val, hj1⟩ : Fin 128) :=
    funext fun a => match a with | ⟨0, _⟩ => rfl | ⟨1, _⟩ => rfl
  refine (congrArg (k3_pay1 (iblk3 V c 0 t) (iblk3 V c 1 t) (iblk3 V c 2 t) (iblk3 V c 3 t)) e).trans ?_
  refine point_eq V c t ⟨(j 0).val, hj0⟩ ⟨(j 1).val, hj1⟩ ((((cfg3.win 4).blk t).view.emb j) 0) ((((cfg3.win 4).blk t).view.emb j) 1) ?_ ?_
  · show win3_4.index t (0 : Fin 2) * 5000 + 1 * (j 0).val = win3_4.index t (0 : Fin 2) * 5000 + (j 0).val; omega
  · show win3_4.index t (1 : Fin 2) * 128 + 1 * (j 1).val = win3_4.index t (1 : Fin 2) * 128 + (j 1).val; omega

/-- An index of the output array is in point `t`'s block iff each coordinate is in the block's range on its axis. -/
theorem mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v43).slice (win3_4.rect t)).set ↔ _
  rw [View.set_slice_whole, Rect.mem_set_unit]
  exact Iff.rfl

/-- Row `r` of the output array is in the block of the point whose row block index is `r / 5000`: the ten blocks cover the array. -/
theorem cover (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The output array after the region: the linear stage of the four arrays the region finds on entry. -/
theorem arr (c : Dev nD) :
    (dat3 (F := Ideal) V c).arrAt 4 cfg3.N
      = Stages.lin (V c (Pipeline.arrRef spec3 0)) (V c (Pipeline.arrRef spec3 1)) (V c (Pipeline.arrRef spec3 2)) (V c (Pipeline.arrRef spec3 3)) :=
  (dat3 V c).arrAt_eq_of_cover 4 _ (fun t _ => flushed_eq V c t) cover

end Cert.KernelIdeal.Region3

end
-- ==== Proof.Region4.lean ====
/-
  The second pointwise region of the kernel, read as one function of whole arrays.

  As in the first pointwise region the 50000 node rows are walked in ten blocks of 5000: row `p` of a block of the
  aggregated features is scaled by the `p`-th entry of the block's column of per-node factors and the bias row (the
  same 128 entries at every block) is added; here the same block of a residual array is added as well, before the
  clamp below at the word of `+0.0`. Row `p` of block `t` is row `t * 5000 + p` of every moving array, so block `t`
  of the output is block `t` of
      out[r, c] = max (a[r, c] * s[r] + b[c] + res[r, c]) 0
  of the four whole arrays, and the ten blocks tile the rows (row `r` is in block `r / 5000`). Nothing needs the entries
  to be finite; the zero word is the same on both sides and is never evaluated.
-/
import proofs.«178389_j45311904973180_1_alg».proof.Proof.Gen.KernelIdeal.Frame
import proofs.«178389_j45311904973180_1_alg».proof.Proof.Stages
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Region4

open Idealize.ShloMosaic Idealize.ShloMosaic.TcCoe Idealize.ShloMosaic.ValueIdx
open Idealize.ShloMosaic.Pipeline (Dat Cfg Window)

/-- The body's value at row `p`, column `q` of a block: the block's entry times the row's factor, plus the
    column's bias, plus the residual block's entry, clamped below at the word of `+0.0`. The two broadcasts read the
    factor column at `(p, 0)` and the bias row at `(0, q)`; the casts to the same shape are identities. -/
theorem pay (x0 : Vec Ideal S5000x128 .f32) (x1 : Vec Ideal S5000x1 .f32) (x2 : Vec Ideal S1x128 .f32)
    (x3 : Vec Ideal S5000x128 .f32) (p : Fin 5000) (q : Fin 128) :
    Gen.k4_pay1 x0 x1 x2 x3 (ix2 p q)
      = max (x0 (ix2 p q) * x1 (ix2 p (0 : Fin 1)) + x2 (ix2 (0 : Fin 1) q) + x3 (ix2 p q)) Cert.Stages.zeroW := by
  unfold Gen.k4_pay1
  rw [maximumf_apply, addf_apply, addf_apply, mulf_apply, shapeCast_self, shapeCast_self, shapeCast_self, shapeCast_self,
    broadcast_apply, broadcastTo_1b_ab_apply]
  have hc : broadcastTo S5000x128 x1 Gen.broadcasts_S5000x1_S5000x128 (ix2 p q) = x1 (ix2 p (0 : Fin 1)) := by
    refine broadcastTo_apply x1 Gen.broadcasts_S5000x1_S5000x128 (ix2 p q) (ix2 p (0 : Fin 1)) fun ax => ?_
    match ax with
    | ⟨0, _⟩ => rfl
    | ⟨1, _⟩ => rfl
  rw [hc]
  rfl

/-- The clamped sum depends only on the five entries read. -/
theorem clamp_congr {x0 x1 x2 x3 y a0 a1 a2 a3 g : EReal} (h0 : x0 = a0) (h1 : x1 = a1) (h2 : x2 = a2) (h3 : x3 = a3)
    (h4 : y = g) (hg : max (a0 * a1 + a2 + a3) Cert.Stages.zeroW = g) :
    max (x0 * x1 + x2 + x3) Cert.Stages.zeroW = y := by
  subst h0 h1 h2 h3 h4; exact hg

variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-- The block indices over the grid, decided point by point: the three moving inputs sit at the output's row block
    and at column block 0; the bias is always its one block; the output's row block is at most 9 and its column
    block 0. -/
theorem idx_facts : ∀ t : Fin cfg4.N,
    win4_0.index t (0 : Fin 2) = win4_4.index t (0 : Fin 2)
    ∧ win4_0.index t (1 : Fin 2) = 0
    ∧ win4_1.index t (0 : Fin 2) = win4_4.index t (0 : Fin 2)
    ∧ win4_1.index t (1 : Fin 2) = 0
    ∧ win4_2.index t (0 : Fin 2) = 0
    ∧ win4_2.index t (1 : Fin 2) = 0
    ∧ win4_3.index t (0 : Fin 2) = win4_4.index t (0 : Fin 2)
    ∧ win4_3.index t (1 : Fin 2) = 0
    ∧ win4_4.index t (1 : Fin 2) = 0
    ∧ win4_4.index t (0 : Fin 2) ≤ 9 :=
  (by decide +kernel : ∀ t : Fin grid4.N, _)

/-- Row `p`, column `q` of the aggregated features' block at a point is row `(block index) * 5000 + p`, column `q`
    of the array. -/
theorem emb0 (t : Fin cfg4.N) (p : Fin 5000) (q : Fin 128) (r : Fin 50000)
    (hr : r.val = win4_4.index t (0 : Fin 2) * 5000 + p.val) :
    ((cfg4.win 0).blk t).view.emb (ix2 p q) = (ix2 r q : S50000x128.Idx) := by
  obtain ⟨e00, e01, -⟩ := idx_facts t
  funext a; apply Fin.ext
  match a with
  | ⟨0, _⟩ => show win4_0.index t (0 : Fin 2) * 5000 + 1 * p.val = r.val; omega
  | ⟨1, _⟩ => show win4_0.index t (1 : Fin 2) * 128 + 1 * q.val = q.val; omega

/-- Row `p` of the factor column's block at a point is row `(block index) * 5000 + p` of the column. -/
theorem emb1 (t : Fin cfg4.N) (p : Fin 5000) (r : Fin 50000)
    (hr : r.val = win4_4.index t (0 : Fin 2) * 5000 + p.val) :
    ((cfg4.win 1).blk t).view.emb (ix2 p (0 : Fin 1)) = (ix2 r (0 : Fin 1) : S50000x1.Idx) := by
  obtain ⟨-, -, e10, e11, -⟩ := idx_facts t
  funext a; apply Fin.ext
  match a with
  | ⟨0, _⟩ => show win4_1.index t (0 : Fin 2) * 5000 + 1 * p.val = r.val; omega
  | ⟨1, _⟩ => show win4_1.index t (1 : Fin 2) * 1 + 1 * 0 = 0; omega

/-- The bias row's block at every point is the whole row. -/
theorem emb2 (t : Fin cfg4.N) (q : Fin 128) :
    ((cfg4.win 2).blk t).view.emb (ix2 (0 : Fin 1) q) = (ix2 (0 : Fin 1) q : S1x128.Idx) := by
  obtain ⟨-, -, -, -, e20, e21, -⟩ := idx_facts t
  funext a; apply Fin.ext
  match a with
  | ⟨0, _⟩ => show win4_2.index t (0 : Fin 2) * 1 + 1 * 0 = 0; omega
  | ⟨1, _⟩ => show win4_2.index t (1 : Fin 2) * 128 + 1 * q.val = q.val; omega

/-- Row `p`, column `q` of the residual's block at a point is row `(block index) * 5000 + p`, column `q` of the
    array. -/
theorem emb3 (t : Fin cfg4.N) (p : Fin 5000) (q : Fin 128) (r : Fin 50000)
    (hr : r.val = win4_4.index t (0 : Fin 2) * 5000 + p.val) :
    ((cfg4.win 3).blk t).view.emb (ix2 p q) = (ix2 r q : S50000x128.Idx) := by
  obtain ⟨-, -, -, -, -, -, e30, e31, -⟩ := idx_facts t
  funext a; apply Fin.ext
  match a with
  | ⟨0, _⟩ => show win4_3.index t (0 : Fin 2) * 5000 + 1 * p.val = r.val; omega
  | ⟨1, _⟩ => show win4_3.index t (1 : Fin 2) * 128 + 1 * q.val = q.val; omega

/-- Row `p`, column `q` of the output's block at a point is row `(block index) * 5000 + p`, column `q` of the
    array. -/
theorem emb4 (t : Fin cfg4.N) (p : Fin 5000) (q : Fin 128) (r : Fin 50000)
    (hr : r.val = win4_4.index t (0 : Fin 2) * 5000 + p.val) :
    ((cfg4.win 4).blk t).view.emb (ix2 p q) = (ix2 r q : S50000x128.Idx) := by
  obtain ⟨-, -, -, -, -, -, -, -, e41, -⟩ := idx_facts t
  funext a; apply Fin.ext
  match a with
  | ⟨0, _⟩ => show win4_4.index t (0 : Fin 2) * 5000 + 1 * p.val = r.val; omega
  | ⟨1, _⟩ => show win4_4.index t (1 : Fin 2) * 128 + 1 * q.val = q.val; omega

/-- Reading the aggregated features' block at a point: its entry `(p, q)` is the array's entry `(r, q)`, `r` the
    row `(block index) * 5000 + p`. -/
theorem read0 (G : S50000x128.Idx → EReal) (t : Fin cfg4.N) (p : Fin 5000) (q : Fin 128) (r : Fin 50000)
    (hr : r.val = win4_4.index t (0 : Fin 2) * 5000 + p.val) :
    ((cfg4.win 0).blk t).view.read (Elt Ideal) G (ix2 p q) = G (ix2 r q) := by
  show G (((cfg4.win 0).blk t).view.emb (ix2 p q)) = _
  rw [emb0 t p q r hr]

/-- Reading the factor column's block at a point: its entry `(p, 0)` is the column's entry `(r, 0)`. -/
theorem read1 (G : S50000x1.Idx → EReal) (t : Fin cfg4.N) (p : Fin 5000) (r : Fin 50000)
    (hr : r.val = win4_4.index t (0 : Fin 2) * 5000 + p.val) :
    ((cfg4.win 1).blk t).view.read (Elt Ideal) G (ix2 p (0 : Fin 1)) = G (ix2 r (0 : Fin 1)) := by
  show G (((cfg4.win 1).blk t).view.emb (ix2 p (0 : Fin 1))) = _
  rw [emb1 t p r hr]

/-- Reading the bias row's block at a point: the row itself. -/
theorem read2 (G : S1x128.Idx → EReal) (t : Fin cfg4.N) (q : Fin 128) :
    ((cfg4.win 2).blk t).view.read (Elt Ideal) G (ix2 (0 : Fin 1) q) = G (ix2 (0 : Fin 1) q) := by
  show G (((cfg4.win 2).blk t).view.emb (ix2 (0 : Fin 1) q)) = _
  rw [emb2 t q]

/-- Reading the residual's block at a point: its entry `(p, q)` is the array's entry `(r, q)`. -/
theorem read3 (G : S50000x128.Idx → EReal) (t : Fin cfg4.N) (p : Fin 5000) (q : Fin 128) (r : Fin 50000)
    (hr : r.val = win4_4.index t (0 : Fin 2) * 5000 + p.val) :
    ((cfg4.win 3).blk t).view.read (Elt Ideal) G (ix2 p q) = G (ix2 r q) := by
  show G (((cfg4.win 3).blk t).view.emb (ix2 p q)) = _
  rw [emb3 t p q r hr]

/-- Reading the output's block of any whole array at a point: its entry `(p, q)` is the array's entry `(r, q)`. -/
theorem read4 (G : S50000x128.Idx → EReal) (t : Fin cfg4.N) (p : Fin 5000) (q : Fin 128) (r : Fin 50000)
    (hr : r.val = win4_4.index t (0 : Fin 2) * 5000 + p.val) :
    ((cfg4.win 4).blk t).view.read (Elt Ideal) G (ix2 p q) = G (ix2 r q) := by
  show G (((cfg4.win 4).blk t).view.emb (ix2 p q)) = _
  rw [emb4 t p q r hr]

/-- What a point writes back is that point's block of the whole-array stage: inside the block, row `p` of the
    point's row block is row `(block index) * 5000 + p` of each moving array, and the bias row is the whole bias. -/
theorem flushed_eq (c : Dev nD) (t : Fin cfg4.N) :
    (Gen.dat4 (F := Ideal) V c).flushed 4 t
      = ((cfg4.win 4).blk t).view.read (Elt Ideal)
          (Cert.Stages.postRes (V c (Pipeline.arrRef spec4 0)) (V c (Pipeline.arrRef spec4 1)) (V c (Pipeline.arrRef spec4 2))
            (V c (Pipeline.arrRef spec4 3))) := by
  show (cfg4.win 4).cut (grid4.coords t) ((Gen.dat4 (F := Ideal) V c).after 4 t) = _
  rw [Gen.after4_4]
  unfold Gen.out4_4
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  refine (pay (Gen.iblk4 V c 0 t) (Gen.iblk4 V c 1 t) (Gen.iblk4 V c 2 t) (Gen.iblk4 V c 3 t) p q).trans ?_
  unfold Gen.iblk4
  have hp : p.val < 5000 := p.isLt
  have h9 : win4_4.index t (0 : Fin 2) ≤ 9 := (idx_facts t).2.2.2.2.2.2.2.2.2
  have hr : win4_4.index t (0 : Fin 2) * 5000 + p.val < 50000 := by omega
  exact clamp_congr (read0 (V c (Pipeline.arrRef spec4 0)) t p q ⟨_, hr⟩ rfl) (read1 (V c (Pipeline.arrRef spec4 1)) t p ⟨_, hr⟩ rfl)
    (read2 (V c (Pipeline.arrRef spec4 2)) t q) (read3 (V c (Pipeline.arrRef spec4 3)) t p q ⟨_, hr⟩ rfl)
    (read4 (Cert.Stages.postRes (V c (Pipeline.arrRef spec4 0)) (V c (Pipeline.arrRef spec4 1)) (V c (Pipeline.arrRef spec4 2))
      (V c (Pipeline.arrRef spec4 3))) t p q ⟨_, hr⟩ rfl) rfl

/-- An index of the array lies in a point's block exactly when each coordinate lies in the block's range. -/
theorem mem_blk (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v55).slice (win4_4.rect t)).set ↔ _
  rw [View.set_slice_whole, Rect.mem_set_unit]
  exact Iff.rfl

/-- Every one of the ten row blocks is some point's block. -/
theorem idx_onto : ∀ b : Fin 10, ∃ t : Fin cfg4.N, win4_4.index t (0 : Fin 2) = b.val ∧ win4_4.index t (1 : Fin 2) = 0 :=
  (by decide +kernel : ∀ b : Fin 10, ∃ t : Fin grid4.N, win4_4.index t (0 : Fin 2) = b.val ∧ win4_4.index t (1 : Fin 2) = 0)

/-- The blocks cover the array: row `r` lies in block `r / 5000`. -/
theorem cover (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  obtain ⟨t, q0, q1⟩ := idx_onto ⟨(i 0).val / 5000, by omega⟩
  have q0' : win4_4.index t (0 : Fin 2) = (i 0).val / 5000 := q0
  refine ⟨t, Gen.flush4_4 t, ?_⟩
  rw [mem_blk]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-- The array the region leaves: the post-aggregation stage with a residual, of the four arrays the region finds. -/
theorem arr (c : Dev nD) :
    (Gen.dat4 (F := Ideal) V c).arrAt 4 cfg4.N
      = Cert.Stages.postRes (V c (Pipeline.arrRef spec4 0)) (V c (Pipeline.arrRef spec4 1)) (V c (Pipeline.arrRef spec4 2))
          (V c (Pipeline.arrRef spec4 3)) :=
  (Gen.dat4 (F := Ideal) V c).arrAt_eq_of_cover 4 _ (fun t _ => flushed_eq V c t) cover

end Cert.KernelIdeal.Region4

end
-- ==== Proof.Region5.lean ====
/-
  The last matmul region, as one function of whole arrays.

  The region runs over ten row blocks of 5000 nodes. At each block the body scales every row of the 5000x128 feature
  block by that row's entry of a 5000x1 column block, multiplies the result by the whole 128x64 weight matrix into a
  zero accumulator, and adds the 1x64 bias row to every row. At the ideal instance the narrowing to bf16 is the
  identity, so entry (p, q) of the block's result is

      (sum over k of (x[p, k] * s[p, 0]) * w[k, q]) + b[0, q].

  Block t of the feature and column arrays and of the output array starts at row 5000 * t, the weight and bias blocks
  are the whole arrays, and the ten output blocks cover all 50000 rows. So the output array ends holding the output projection
  of the four arrays the region finds on entry, whatever those arrays are.
-/
import proofs.«178389_j45311904973180_1_alg».proof.Proof.Gen.KernelIdeal.Frame
import proofs.«178389_j45311904973180_1_alg».proof.Proof.Stages
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

/-! ## The body's result at an entry of the block -/

/-- The left operand's index at output entry `i` and contraction index `k`: row of `i`, column `k`. -/
theorem lhs_coord0 (i : S5000x64.Idx) (k : dot_S5000x128_S128x64_S5000x64_1_0_0_1_n_n.contr.Idx) :
    (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_coord1 (i : S5000x64.Idx) (k : dot_S5000x128_S128x64_S5000x64_1_0_0_1_n_n.contr.Idx) :
    (dot_S5000x128_S128x64_S5000x64_1_0_0_1_n_n.lhsIdx i k 1).val = (k ⟨0, by decide⟩).val :=
  dot_S5000x128_S128x64_S5000x64_1_0_0_1_n_n.lhsIdx_val_of_single rfl i k
/-- The right operand's index: row `k`, column of `i`. -/
theorem rhs_coord0 (i : S5000x64.Idx) (k : dot_S5000x128_S128x64_S5000x64_1_0_0_1_n_n.contr.Idx) :
    (dot_S5000x128_S128x64_S5000x64_1_0_0_1_n_n.rhsIdx i k 0).val = (k ⟨0, by decide⟩).val :=
  dot_S5000x128_S128x64_S5000x64_1_0_0_1_n_n.rhsIdx_val_of_single rfl i k
theorem rhs_coord1 (i : S5000x64.Idx) (k : dot_S5000x128_S128x64_S5000x64_1_0_0_1_n_n.contr.Idx) :
    (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matmul into the zero accumulator, read at entry (p, q): the sum over the 128 contraction positions. -/
theorem matmul_at (l : FVec Ideal S5000x128 .bf16) (r : FVec Ideal S128x64 .bf16) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_coord0 _ _
    | ⟨1, _⟩ => exact (lhs_coord1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_coord0 _ _).trans hk
    | ⟨1, _⟩ => exact rhs_coord1 _ _)
  rw [el, er]

/-- The column block broadcast along the columns, read at (p, k): the column's entry of row p. -/
theorem col_bcast_at (x1 : Vec Ideal S5000x1 .f32) (p : Fin 5000) (k : Fin 128) :
    broadcastTo S5000x128 (shapeCast S5000x1 x1 shapeCasts_S5000x1_S5000x1) broadcasts_S5000x1_S5000x128 (ix2 p k) = x1 (ix2 p (0 : Fin 1)) := by
  rw [shapeCast_self]
  exact broadcastTo_apply x1 broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else k.val; rw [if_pos rfl])

/-- The bias row broadcast along the rows, read at (p, q): the row's entry of column q. -/
theorem row_bcast_at (x3 : Vec Ideal S1x64 .f32) (p : Fin 5000) (q : Fin 64) :
    broadcastTo S5000x64 (shapeCast S1x64 x3 shapeCasts_S1x64_S1x64) broadcasts_S1x64_S5000x64 (ix2 p q) = x3 (ix2 (0 : Fin 1) q) := by
  rw [shapeCast_self]
  exact broadcastTo_apply x3 broadcasts_S1x64_S5000x64 (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- The body's result at entry (p, q) of the block, from the four blocks it loads. -/
theorem pay_at (x0 : Vec Ideal S5000x128 .f32) (x1 : Vec Ideal S5000x1 .f32) (x2 : Vec Ideal S128x64 .f32) (x3 : Vec Ideal S1x64 .f32)
    (p : Fin 5000) (q : Fin 64) :
    k5_pay1 x0 x1 x2 x3 (ix2 p q)
      = (∑ k : Fin 128, (x0 (ix2 p k) * x1 (ix2 p (0 : Fin 1))) * x2 (ix2 k q)) + x3 (ix2 (0 : Fin 1) q) := by
  unfold k5_pay1
  refine (addf_apply _ _ (ix2 p q)).trans ?_
  refine congrArg₂ (· + ·) ?_ (row_bcast_at x3 p q)
  refine (matmul_at _ _ p q).trans ?_
  refine Finset.sum_congr rfl fun k _ => ?_
  show shapeCast S5000x128 x0 shapeCasts_S5000x128_S5000x128 (ix2 p k) * broadcastTo S5000x128 (shapeCast S5000x1 x1 shapeCasts_S5000x1_S5000x1) broadcasts_S5000x1_S5000x128 (ix2 p k) * x2 (ix2 k q) = _
  rw [col_bcast_at, shapeCast_self]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block indices over the ten points: the feature, column and output blocks move together along the rows and sit at
    column block 0; the weight and bias blocks are always block (0, 0); the row block index is at most 9. -/
theorem idx_facts : ∀ t : Fin cfg5.N,
    win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (1 : Fin 2) = 0 ∧ win5_4.index t (0 : Fin 2) ≤ 9 :=
  (by decide +kernel : ∀ t : Fin grid5.N, _)

/-- Every one of the ten row blocks of the output is some point's. -/
theorem idx_onto : ∀ b : Fin 10, ∃ t : Fin cfg5.N, win5_4.index t = ![b.val, 0] :=
  (by decide +kernel : ∀ b : Fin 10, ∃ t : Fin grid5.N, win5_4.index t = ![b.val, 0])

/-- Entry `x` of the feature block at point `t` is the array's entry at block index times block size plus `x`. -/
theorem blk0_at (c : Dev nD) (t : Fin cfg5.N) (x : S5000x128.Idx) (i : S50000x128.Idx)
    (h0 : (i 0).val = win5_0.index t (0 : Fin 2) * 5000 + (x 0).val) (h1 : (i 1).val = win5_0.index t (1 : Fin 2) * 128 + (x 1).val) :
    (iblk5 V c 0 t : Vec Ideal S5000x128 .f32) x = (V c (Pipeline.arrRef spec5 0) : S50000x128.Idx → EReal) i := by
  unfold iblk5
  show V c (Pipeline.arrRef spec5 0) (((cfg5.win 0).blk t).view.emb x) = _
  refine congrArg (V c (Pipeline.arrRef spec5 0) : S50000x128.Idx → EReal) (funext fun a => Fin.ext ?_)
  match a with
  | ⟨0, _⟩ => show win5_0.index t (0 : Fin 2) * 5000 + 1 * (x 0).val = (i 0).val; omega
  | ⟨1, _⟩ => show win5_0.index t (1 : Fin 2) * 128 + 1 * (x 1).val = (i 1).val; omega

/-- The same for the column block. -/
theorem blk1_at (c : Dev nD) (t : Fin cfg5.N) (x : S5000x1.Idx) (i : S50000x1.Idx)
    (h0 : (i 0).val = win5_1.index t (0 : Fin 2) * 5000 + (x 0).val) (h1 : (i 1).val = win5_1.index t (1 : Fin 2) * 1 + (x 1).val) :
    (iblk5 V c 1 t : Vec Ideal S5000x1 .f32) x = (V c (Pipeline.arrRef spec5 1) : S50000x1.Idx → EReal) i := by
  unfold iblk5
  show V c (Pipeline.arrRef spec5 1) (((cfg5.win 1).blk t).view.emb x) = _
  refine congrArg (V c (Pipeline.arrRef spec5 1) : S50000x1.Idx → EReal) (funext fun a => Fin.ext ?_)
  match a with
  | ⟨0, _⟩ => show win5_1.index t (0 : Fin 2) * 5000 + 1 * (x 0).val = (i 0).val; omega
  | ⟨1, _⟩ => show win5_1.index t (1 : Fin 2) * 1 + 1 * (x 1).val = (i 1).val; omega

/-- The same for the weight block. -/
theorem blk2_at (c : Dev nD) (t : Fin cfg5.N) (x : S128x64.Idx) (i : S128x64.Idx)
    (h0 : (i 0).val = win5_2.index t (0 : Fin 2) * 128 + (x 0).val) (h1 : (i 1).val = win5_2.index t (1 : Fin 2) * 64 + (x 1).val) :
    (iblk5 V c 2 t : Vec Ideal S128x64 .f32) x = (V c (Pipeline.arrRef spec5 2) : S128x64.Idx → EReal) i := by
  unfold iblk5
  show V c (Pipeline.arrRef spec5 2) (((cfg5.win 2).blk t).view.emb x) = _
  refine congrArg (V c (Pipeline.arrRef spec5 2) : S128x64.Idx → EReal) (funext fun a => Fin.ext ?_)
  match a with
  | ⟨0, _⟩ => show win5_2.index t (0 : Fin 2) * 128 + 1 * (x 0).val = (i 0).val; omega
  | ⟨1, _⟩ => show win5_2.index t (1 : Fin 2) * 64 + 1 * (x 1).val = (i 1).val; omega

/-- The same for the bias block. -/
theorem blk3_at (c : Dev nD) (t : Fin cfg5.N) (x : S1x64.Idx) (i : S1x64.Idx)
    (h0 : (i 0).val = win5_3.index t (0 : Fin 2) * 1 + (x 0).val) (h1 : (i 1).val = win5_3.index t (1 : Fin 2) * 64 + (x 1).val) :
    (iblk5 V c 3 t : Vec Ideal S1x64 .f32) x = (V c (Pipeline.arrRef spec5 3) : S1x64.Idx → EReal) i := by
  unfold iblk5
  show V c (Pipeline.arrRef spec5 3) (((cfg5.win 3).blk t).view.emb x) = _
  refine congrArg (V c (Pipeline.arrRef spec5 3) : S1x64.Idx → EReal) (funext fun a => Fin.ext ?_)
  match a with
  | ⟨0, _⟩ => show win5_3.index t (0 : Fin 2) * 1 + 1 * (x 0).val = (i 0).val; omega
  | ⟨1, _⟩ => show win5_3.index t (1 : Fin 2) * 64 + 1 * (x 1).val = (i 1).val; omega

/-- If four blocks agree with four arrays along row `p` of the blocks and row `r` of the arrays, and along column `q` and
    column `cq`, the body's formula on the blocks at (p, q) is the output projection of the arrays at (r, cq). -/
theorem lin_of_blocks (A0 : Stages.Feat.Idx → EReal) (A1 : Stages.Col.Idx → EReal) (A2 : Stages.WtOut.Idx → EReal) (A3 : Stages.RowOut.Idx → EReal)
    (B0 : S5000x128.Idx → EReal) (B1 : S5000x1.Idx → EReal) (B2 : S128x64.Idx → EReal) (B3 : S1x64.Idx → EReal)
    (p : Fin 5000) (q : Fin 64) (r : Fin 50000) (cq : Fin 64)
    (h0 : ∀ k : Fin 128, B0 (ix2 p k) = A0 (ix2 r k)) (h1 : B1 (ix2 p (0 : Fin 1)) = A1 (ix2 r (0 : Fin 1)))
    (h2 : ∀ k : Fin 128, B2 (ix2 k q) = A2 (ix2 k cq)) (h3 : B3 (ix2 (0 : Fin 1) q) = A3 (ix2 (0 : Fin 1) cq)) :
    (∑ k : Fin 128, (B0 (ix2 p k) * B1 (ix2 p (0 : Fin 1))) * B2 (ix2 k q)) + B3 (ix2 (0 : Fin 1) q) = Stages.linOutAt A0 A1 A2 A3 r cq := by
  unfold Stages.linOutAt
  rw [h1, h3]
  exact congrArg (· + A3 (ix2 (0 : Fin 1) cq)) (Finset.sum_congr rfl fun k _ => by rw [h0 k, h2 k])

/-- At point `t`, entry (p, q) of the body's result on the four blocks is the output projection of the four arrays at the entry
    (r, cq) of the output array where the block puts it: row `r` is block row index times 5000 plus `p`, and likewise the column. -/
theorem point_eq (c : Dev nD) (t : Fin cfg5.N) (p : Fin 5000) (q : Fin 64) (r : Fin 50000) (cq : Fin 64)
    (hr : r.val = win5_4.index t (0 : Fin 2) * 5000 + p.val) (hc : cq.val = win5_4.index t (1 : Fin 2) * 64 + q.val) :
    k5_pay1 (iblk5 V c 0 t) (iblk5 V c 1 t) (iblk5 V c 2 t) (iblk5 V c 3 t) (ix2 p q)
      = Stages.linOutAt (V c (Pipeline.arrRef spec5 0)) (V c (Pipeline.arrRef spec5 1)) (V c (Pipeline.arrRef spec5 2)) (V c (Pipeline.arrRef spec5 3)) r cq := by
  obtain ⟨e00, e01, e10, e11, e20, e21, e30, e31, e41, e40⟩ := idx_facts t
  refine (pay_at (iblk5 V c 0 t) (iblk5 V c 1 t) (iblk5 V c 2 t) (iblk5 V c 3 t) p q).trans ?_
  refine lin_of_blocks _ _ _ _ _ _ _ _ p q r cq (fun k => ?_) ?_ (fun k => ?_) ?_
  · refine blk0_at V c t (ix2 p k) (ix2 r k) ?_ ?_
    · show r.val = win5_0.index t (0 : Fin 2) * 5000 + p.val; omega
    · show k.val = win5_0.index t (1 : Fin 2) * 128 + k.val; omega
  · refine blk1_at V c t (ix2 p (0 : Fin 1)) (ix2 r (0 : Fin 1)) ?_ ?_
    · show r.val = win5_1.index t (0 : Fin 2) * 5000 + p.val; omega
    · show (0 : Nat) = win5_1.index t (1 : Fin 2) * 1 + 0; omega
  · refine blk2_at V c t (ix2 k q) (ix2 k cq) ?_ ?_
    · show k.val = win5_2.index t (0 : Fin 2) * 128 + k.val; omega
    · show cq.val = win5_2.index t (1 : Fin 2) * 64 + q.val; omega
  · refine blk3_at V c t (ix2 (0 : Fin 1) q) (ix2 (0 : Fin 1) cq) ?_ ?_
    · show (0 : Nat) = win5_3.index t (0 : Fin 2) * 1 + 0; omega
    · show cq.val = win5_3.index t (1 : Fin 2) * 64 + q.val; omega

/-- What point `t` writes back is block `t` of the output projection of the four arrays the region finds on entry. -/
theorem flushed_eq (c : Dev nD) (t : Fin cfg5.N) :
    (dat5 V c).flushed 4 t = ((cfg5.win 4).blk t).view.read (Elt Ideal)
      (Stages.linOut (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero hz]
  simp only [View.ld_unit_zero (S := S5000x128) hz, View.ld_unit_zero (S := S5000x1) hz, View.ld_unit_zero (S := S128x64) hz, View.ld_unit_zero (S := S1x64) hz]
  funext j
  have hj0 : (j 0).val < 5000 := (j 0).isLt
  have hj1 : (j 1).val < 64 := (j 1).isLt
  show k5_pay1 (iblk5 V c 0 t) (iblk5 V c 1 t) (iblk5 V c 2 t) (iblk5 V c 3 t) ((cfg5.win 4).xinj (grid5.coords t) j)
      = Stages.linOut (V c (Pipeline.arrRef spec5 0)) (V c (Pipeline.arrRef spec5 1)) (V c (Pipeline.arrRef spec5 2)) (V c (Pipeline.arrRef spec5 3)) (((cfg5.win 4).blk t).view.emb j)
  have e : (cfg5.win 4).xinj (grid5.coords t) j = ix2 (⟨(j 0).val, hj0⟩ : Fin 5000) (⟨(j 1).val, hj1⟩ : Fin 64) :=
    funext fun a => match a with | ⟨0, _⟩ => rfl | ⟨1, _⟩ => rfl
  refine (congrArg (k5_pay1 (iblk5 V c 0 t) (iblk5 V c 1 t) (iblk5 V c 2 t) (iblk5 V c 3 t)) e).trans ?_
  refine point_eq V c t ⟨(j 0).val, hj0⟩ ⟨(j 1).val, hj1⟩ ((((cfg5.win 4).blk t).view.emb j) 0) ((((cfg5.win 4).blk t).view.emb j) 1) ?_ ?_
  · show win5_4.index t (0 : Fin 2) * 5000 + 1 * (j 0).val = win5_4.index t (0 : Fin 2) * 5000 + (j 0).val; omega
  · show win5_4.index t (1 : Fin 2) * 64 + 1 * (j 1).val = win5_4.index t (1 : Fin 2) * 64 + (j 1).val; omega

/-- An index of the output array is in point `t`'s block iff each coordinate is in the block's range on its axis. -/
theorem mem_blk (t : Fin cfg5.N) (i : S50000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v57).slice (win5_4.rect t)).set ↔ _
  rw [View.set_slice_whole, Rect.mem_set_unit]
  exact Iff.rfl

/-- Row `r` of the output array is in the block of the point whose row block index is `r / 5000`: the ten blocks cover the array. -/
theorem cover (i : S50000x64.Idx) : ∃ t : Fin cfg5.N, (cfg5.win 4).flush t = true ∧ i ∈ ((cfg5.win 4).blk t).view.set := by
  have hi0 : (i 0).val < 50000 := (i 0).isLt
  have hi1 : (i 1).val < 64 := (i 1).isLt
  obtain ⟨t, ht⟩ := idx_onto ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- The output array after the region: the output projection of the four arrays the region finds on entry. -/
theorem arr (c : Dev nD) :
    (dat5 (F := Ideal) V c).arrAt 4 cfg5.N
      = Stages.linOut (V c (Pipeline.arrRef spec5 0)) (V c (Pipeline.arrRef spec5 1)) (V c (Pipeline.arrRef spec5 2)) (V c (Pipeline.arrRef spec5 3)) :=
  (dat5 V c).arrAt_eq_of_cover 4 _ (fun t _ => flushed_eq V c t) cover

end Cert.KernelIdeal.Region5

end
-- ==== Proof.Net.lean ====
/-
  The whole two-layer graph convolution as ONE function of its arrays, built from the dense stages of the sibling
  module. The sparse aggregation — gather each edge's source row, add it into the edge's destination row — is carried
  as a variable `agg`, one function from feature arrays to feature arrays: both programs apply the same aggregation
  to the same index list, so an equation between them never has to open it.

      h1   = lin x nsrc w1 0                 (layer 1: scale rows by the source norm, project)
      out1 = post (agg h1) ndst b1           (aggregate, scale by the destination norm, bias, clamp at zero)
      h2   = lin out1 nsrc w2 0              (layer 2)
      res  = lin x 1 wres bres               (the residual branch: an unscaled projection with its bias)
      out  = postRes (agg h2) ndst b2 res    (aggregate, scale, bias, add the residual, clamp at zero)
      y    = linOut out 1 wop bop            (the output projection)
-/
import proofs.«178389_j45311904973180_1_alg».proof.Proof.Stages

noncomputable section

namespace Cert.Stages

open Idealize.ShloMosaic

/-- The network's result from the aggregation `agg`, the node features `x`, the two per-node norm columns, a column
    `one` standing where a projection is not scaled, the weights, the bias rows and a row `zero` standing where a
    projection has no bias. -/
def net (agg : (Feat.Idx → EReal) → (Feat.Idx → EReal)) (x : Feat.Idx → EReal)
    (nsrc ndst one : Col.Idx → EReal) (wres w1 w2 : Wt.Idx → EReal) (wop : WtOut.Idx → EReal)
    (bres b1 b2 zero : Row.Idx → EReal) (bop : RowOut.Idx → EReal) : FeatOut.Idx → EReal :=
  linOut (postRes (agg (lin (post (agg (lin x nsrc w1 zero)) ndst b1) nsrc w2 zero)) ndst b2 (lin x one wres bres)) one wop bop

end Cert.Stages

end
-- ==== Proof.KernelValue.lean ====
/-
  The kernel program's result as ONE function of its arguments. Walking the program's sixteen segments in order:
  launch 0 leaves the residual branch (an unscaled projection of the features with its bias); launch 1 the first
  layer's projection of the features scaled by the source norm; the host aggregates it along the edges; launch 2
  scales the aggregate by the destination norm, adds the bias and clamps at zero; launch 3 projects that, scaled by
  the source norm; the host aggregates again; launch 4 scales, adds the bias and the residual branch and clamps;
  launch 5 projects into the 64 output columns with its bias. Each launch's output array is the stage of the arrays
  it reads (one statement per launch, for any contents it is entered with); the arrays it reads are what earlier
  segments left, by the sibling modules' statements. The composition is the shared function `Cert.Stages.net`.
-/
import proofs.«178389_j45311904973180_1_alg».proof.Proof.KernelNorms
import proofs.«178389_j45311904973180_1_alg».proof.Proof.KernelArgs
import proofs.«178389_j45311904973180_1_alg».proof.Proof.KernelKeeps
import proofs.«178389_j45311904973180_1_alg».proof.Proof.Region0
import proofs.«178389_j45311904973180_1_alg».proof.Proof.Region1
import proofs.«178389_j45311904973180_1_alg».proof.Proof.Region2
import proofs.«178389_j45311904973180_1_alg».proof.Proof.Region3
import proofs.«178389_j45311904973180_1_alg».proof.Proof.Region4
import proofs.«178389_j45311904973180_1_alg».proof.Proof.Region5
import proofs.«178389_j45311904973180_1_alg».proof.Proof.Net

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- One stretch of host operations read at a buffer, every operation's result read in one pass: for the two long
    stretches that hold the aggregation. -/
macro "hstepAll" ops:term:max W:term:max : tactic =>
  `(tactic| (show StableHlo.after $ops $W _ = _; generalize $W = V'; after_results_simp))

/-! ## The arrays the launches read beside the features: norm columns, the column of ones, bias rows, the row of zeros -/

/-- The source norm as a column. -/
def nsCol : FVec Ideal S50000x1 .f32 := shapeCast S50000x1 (normOf (srcIdx m c)) shapeCasts_S50000_S50000x1
/-- The destination norm as a column. -/
def ndCol : FVec Ideal S50000x1 .f32 := shapeCast S50000x1 (normOf (dstIdx m c)) shapeCasts_S50000_S50000x1
/-- The column of ones. -/
def oneCol : FVec Ideal S50000x1 .f32 := broadcastInDim S50000x1 ![] bcast_S_S50000x1 (constant (F := Ideal) S_ .f32 0x3F800000#32)
/-- The row of zeros. -/
def zeroRow : FVec Ideal S1x128 .f32 := broadcastInDim S1x128 ![] bcast_S_S1x128 (constant (F := Ideal) S_ .f32 0x00000000#32)
/-- A bias of 128 entries as a row. -/
def rowOf (b : FVec Ideal S128 .f32) : FVec Ideal S1x128 .f32 := shapeCast S1x128 b shapeCasts_S128_S1x128
/-- The output bias of 64 entries as a row. -/
def rowOutOf (b : FVec Ideal S64 .f32) : FVec Ideal S1x64 .f32 := shapeCast S1x64 b shapeCasts_S64_S1x64

/-! ## The intermediate arrays, in the order the program computes them -/

/-- The residual branch. -/
def resArr : FVec Ideal S50000x128 .f32 := Cert.Stages.lin (m ((c.tc : Thread nD τ).loc main_arg0)) (oneCol) (m ((c.tc : Thread nD τ).loc main_arg2)) (rowOf (m ((c.tc : Thread nD τ).loc main_arg3)))
/-- Layer 1's projection. -/
def h1Arr : FVec Ideal S50000x128 .f32 := Cert.Stages.lin (m ((c.tc : Thread nD τ).loc main_arg0)) (nsCol m c) (m ((c.tc : Thread nD τ).loc main_arg4)) zeroRow
/-- Layer 1's output. -/
def out1Arr : FVec Ideal S50000x128 .f32 := Cert.Stages.post (aggOf (srcIdx m c) (dstIdx m c) (h1Arr m c)) (ndCol m c) (rowOf (m ((c.tc : Thread nD τ).loc main_arg5)))
/-- Layer 2's projection. -/
def h2Arr : FVec Ideal S50000x128 .f32 := Cert.Stages.lin (out1Arr m c) (nsCol m c) (m ((c.tc : Thread nD τ).loc main_arg6)) zeroRow
/-- Layer 2's output with the residual added. -/
def outArr : FVec Ideal S50000x128 .f32 := Cert.Stages.postRes (aggOf (srcIdx m c) (dstIdx m c) (h2Arr m c)) (ndCol m c) (rowOf (m ((c.tc : Thread nD τ).loc main_arg7))) (resArr m c)

/-! ## Segment by segment -/

theorem W6_v27 : W6 (F := Ideal) m ρ c (Proc.devRef .tc main_v27) = resArr m c := by
  refine ((W6_arr (F := Ideal) m ρ c 4).trans (Region0.arr (V5 m ρ) c)).trans ?_
  show Cert.Stages.lin (W5 (F := Ideal) m ρ c (Proc.devRef .tc main_arg0)) (W5 (F := Ideal) m ρ c (Proc.devRef .tc main_v25)) (W5 (F := Ideal) m ρ c (Proc.devRef .tc main_arg2)) (W5 (F := Ideal) m ρ c (Proc.devRef .tc main_v26)) = _
  rw [W5_arg0, W5_v25, W5_arg2, W5_v26_of, W4_arg3]
  rfl

theorem W7_v28 : W7 (F := Ideal) m ρ c (Proc.devRef .tc main_v28) = zeroRow := by
  hstep hostOps1 (W6 m ρ c)
  rfl

theorem W8_v29 : W8 (F := Ideal) m ρ c (Proc.devRef .tc main_v29) = h1Arr m c := by
  refine ((W8_arr (F := Ideal) m ρ c 4).trans (Region1.arr (V7 m ρ) c)).trans ?_
  show Cert.Stages.lin (W7 (F := Ideal) m ρ c (Proc.devRef .tc main_arg0)) (W7 (F := Ideal) m ρ c (Proc.devRef .tc main_v17)) (W7 (F := Ideal) m ρ c (Proc.devRef .tc main_arg4)) (W7 (F := Ideal) m ρ c (Proc.devRef .tc main_v28)) = _
  rw [W7_arg0, W7_v17, W3_v17, W7_arg4, W7_v28]
  rfl

theorem W9_v39 : W9 (F := Ideal) m ρ c (Proc.devRef .tc main_v39) = aggOf (srcIdx m c) (dstIdx m c) (h1Arr m c) := by
  have h : W9 (F := Ideal) m ρ c (Proc.devRef .tc main_v39)
      = aggOf (W8 (F := Ideal) m ρ c (Proc.devRef .tc main_v1)) (W8 (F := Ideal) m ρ c (Proc.devRef .tc main_v3)) (W8 (F := Ideal) m ρ c (Proc.devRef .tc main_v29)) := by
    hstepAll hostOps2 (W8 m ρ c)
    rfl
  rw [h, W8_v1, W1_v1, W8_v3, W1_v3, W8_v29]

theorem W9_v40 : W9 (F := Ideal) m ρ c (Proc.devRef .tc main_v40) = rowOf (m ((c.tc : Thread nD τ).loc main_arg5)) := by
  have h : W9 (F := Ideal) m ρ c (Proc.devRef .tc main_v40) = shapeCast S1x128 (W8 (F := Ideal) m ρ c (Proc.devRef .tc main_arg5)) shapeCasts_S128_S1x128 := by
    hstepAll hostOps2 (W8 m ρ c)
    rfl
  rw [h, W8_arg5]
  rfl

theorem W10_v41 : W10 (F := Ideal) m ρ c (Proc.devRef .tc main_v41) = out1Arr m c := by
  refine ((W10_arr (F := Ideal) m ρ c 3).trans (Region2.arr (V9 m ρ) c)).trans ?_
  show Cert.Stages.post (W9 (F := Ideal) m ρ c (Proc.devRef .tc main_v39)) (W9 (F := Ideal) m ρ c (Proc.devRef .tc main_v24)) (W9 (F := Ideal) m ρ c (Proc.devRef .tc main_v40)) = _
  rw [W9_v39, W9_v24, W5_v24, W9_v40]
  rfl

theorem W11_v42 : W11 (F := Ideal) m ρ c (Proc.devRef .tc main_v42) = zeroRow := by
  hstep hostOps3 (W10 m ρ c)
  rfl

theorem W12_v43 : W12 (F := Ideal) m ρ c (Proc.devRef .tc main_v43) = h2Arr m c := by
  refine ((W12_arr (F := Ideal) m ρ c 4).trans (Region3.arr (V11 m ρ) c)).trans ?_
  show Cert.Stages.lin (W11 (F := Ideal) m ρ c (Proc.devRef .tc main_v41)) (W11 (F := Ideal) m ρ c (Proc.devRef .tc main_v17)) (W11 (F := Ideal) m ρ c (Proc.devRef .tc main_arg6)) (W11 (F := Ideal) m ρ c (Proc.devRef .tc main_v42)) = _
  rw [W11_v41, W10_v41, W11_v17, W3_v17, W11_arg6, W11_v42]
  rfl

theorem W13_v53 : W13 (F := Ideal) m ρ c (Proc.devRef .tc main_v53) = aggOf (srcIdx m c) (dstIdx m c) (h2Arr m c) := by
  have h : W13 (F := Ideal) m ρ c (Proc.devRef .tc main_v53)
      = aggOf (W12 (F := Ideal) m ρ c (Proc.devRef .tc main_v1)) (W12 (F := Ideal) m ρ c (Proc.devRef .tc main_v3)) (W12 (F := Ideal) m ρ c (Proc.devRef .tc main_v43)) := by
    hstepAll hostOps4 (W12 m ρ c)
    rfl
  rw [h, W12_v1, W1_v1, W12_v3, W1_v3, W12_v43]

theorem W13_v54 : W13 (F := Ideal) m ρ c (Proc.devRef .tc main_v54) = rowOf (m ((c.tc : Thread nD τ).loc main_arg7)) := by
  have h : W13 (F := Ideal) m ρ c (Proc.devRef .tc main_v54) = shapeCast S1x128 (W12 (F := Ideal) m ρ c (Proc.devRef .tc main_arg7)) shapeCasts_S128_S1x128 := by
    hstepAll hostOps4 (W12 m ρ c)
    rfl
  rw [h, W12_arg7]
  rfl

theorem W14_v55 : W14 (F := Ideal) m ρ c (Proc.devRef .tc main_v55) = outArr m c := by
  refine ((W14_arr (F := Ideal) m ρ c 4).trans (Region4.arr (V13 m ρ) c)).trans ?_
  show Cert.Stages.postRes (W13 (F := Ideal) m ρ c (Proc.devRef .tc main_v53)) (W13 (F := Ideal) m ρ c (Proc.devRef .tc main_v24)) (W13 (F := Ideal) m ρ c (Proc.devRef .tc main_v54)) (W13 (F := Ideal) m ρ c (Proc.devRef .tc main_v27)) = _
  rw [W13_v53, W13_v24, W5_v24, W13_v54, W13_v27, W6_v27]
  rfl

theorem W15_v56 : W15 (F := Ideal) m ρ c (Proc.devRef .tc main_v56) = rowOutOf (m ((c.tc : Thread nD τ).loc main_arg9)) := by
  have h : W15 (F := Ideal) m ρ c (Proc.devRef .tc main_v56) = shapeCast S1x64 (W14 (F := Ideal) m ρ c (Proc.devRef .tc main_arg9)) shapeCasts_S64_S1x64 := by
    hstep hostOps5 (W14 m ρ c)
    rfl
  rw [h, W14_arg9]
  rfl

/-- THE RESULT: the last boundary's contents at the result buffer are the network's function of the arguments. -/
theorem value : W16 (F := Ideal) m ρ c (Proc.devRef .tc main_v57)
    = Cert.Stages.net (aggOf (srcIdx m c) (dstIdx m c)) (m ((c.tc : Thread nD τ).loc main_arg0)) (nsCol m c) (ndCol m c) oneCol
        (m ((c.tc : Thread nD τ).loc main_arg2)) (m ((c.tc : Thread nD τ).loc main_arg4)) (m ((c.tc : Thread nD τ).loc main_arg6)) (m ((c.tc : Thread nD τ).loc main_arg8))
        (rowOf (m ((c.tc : Thread nD τ).loc main_arg3))) (rowOf (m ((c.tc : Thread nD τ).loc main_arg5))) (rowOf (m ((c.tc : Thread nD τ).loc main_arg7))) zeroRow (rowOutOf (m ((c.tc : Thread nD τ).loc main_arg9))) := by
  refine ((W16_arr (F := Ideal) m ρ c 4).trans (Region5.arr (V15 m ρ) c)).trans ?_
  show Cert.Stages.linOut (W15 (F := Ideal) m ρ c (Proc.devRef .tc main_v55)) (W15 (F := Ideal) m ρ c (Proc.devRef .tc main_v25)) (W15 (F := Ideal) m ρ c (Proc.devRef .tc main_arg8)) (W15 (F := Ideal) m ρ c (Proc.devRef .tc main_v56)) = _
  rw [W15_v55, W14_v55, W15_v25, W5_v25, W15_arg8, W15_v56]
  rfl

end Cert.KernelIdeal.Net

end
-- ==== Proof.RefValue.lean ====
/-
  The reference program's result as the shared network function.

  The reference is a plain host program; its result buffer is one composed term of the argument arrays. This module
  names the sub-terms of that term that carry no dense arithmetic (the two rows of the edge list, the per-node
  normalisation factor of an index row, a vector laid out as a column or as a row, and the sparse aggregation:
  gather every edge's source row, add it into the edge's destination row) and shows that each dense stage of the
  term is the matching stage function, read index by index:

    * a product of a row-scaled array with a weight matrix, with no bias, is the linear stage with a zero bias row;
    * a product with a bias row added, with no scaling, is the linear stage with a column of ones;
    * scale, add a bias row (and possibly a residual array), clamp below at zero: the post-aggregation stages.

  At an index (r, c) a matrix product is the sum over the contraction axis k of left[r, k] * right[k, c]; a column
  broadcast along the rows reads its r-th entry and a row broadcast down the columns reads its c-th entry.
  Rewriting the reference's term stage by stage, outermost first, leaves exactly the network function applied to
  the named sub-terms.
-/
import proofs.«178389_j45311904973180_1_alg».proof.Proof.RefRun
import proofs.«178389_j45311904973180_1_alg».proof.Proof.Net
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ### The dotSq at an index -/

/-- The left operand's row coordinate is the output's row. -/
theorem dotSq_lhs0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

/-- The right operand's column coordinate is the output's column. -/
theorem dotSq_rhs1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The product at row `r`, column `c`: the sum over the contraction axis. -/
theorem dotSq_apply (X : FVec Ideal S50000x128 .f32) (W : FVec Ideal S128x128 .f32) (r : Fin 50000) (c : Fin 128) :
    (Host.dotGeneral (F := Ideal) dot_S50000x128_S128x128_S50000x128_1_0_0_1_n_n none X W : FVec Ideal S50000x128 .f32) (ix2 r c)
      = ∑ k : Fin 128, X (ix2 r k) * W (ix2 k c) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r c) ((contrEquiv1 dot_S50000x128_S128x128_S50000x128_1_0_0_1_n_n 128 rfl rfl).symm k) = ix2 r k := funext fun a => Fin.ext (by
    match a with
    | ⟨0, _⟩ => exact dotSq_lhs0 _ _
    | ⟨1, _⟩ => exact (dot_S50000x128_S128x128_S50000x128_1_0_0_1_n_n.lhsIdx_val_of_single rfl _ _).trans hk)
  have er : dot_S50000x128_S128x128_S50000x128_1_0_0_1_n_n.rhsIdx (ix2 r c) ((contrEquiv1 dot_S50000x128_S128x128_S50000x128_1_0_0_1_n_n 128 rfl rfl).symm k) = ix2 k c := funext fun a => Fin.ext (by
    match a with
    | ⟨0, _⟩ => exact (dot_S50000x128_S128x128_S50000x128_1_0_0_1_n_n.rhsIdx_val_of_single rfl _ _).trans hk
    | ⟨1, _⟩ => exact dotSq_rhs1 _ _)
  rw [el, er]

/-! ### The dotOut at an index -/

/-- The left operand's row coordinate is the output's row. -/
theorem dotOut_lhs0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl

/-- The right operand's column coordinate is the output's column. -/
theorem dotOut_rhs1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The product at row `r`, column `c`: the sum over the contraction axis. -/
theorem dotOut_apply (X : FVec Ideal S50000x128 .f32) (W : FVec Ideal S128x64 .f32) (r : Fin 50000) (c : Fin 64) :
    (Host.dotGeneral (F := Ideal) dot_S50000x128_S128x64_S50000x64_1_0_0_1_n_n none X W : FVec Ideal S50000x64 .f32) (ix2 r c)
      = ∑ k : Fin 128, X (ix2 r k) * W (ix2 k c) := by
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 r c) ((contrEquiv1 dot_S50000x128_S128x64_S50000x64_1_0_0_1_n_n 128 rfl rfl).symm k) = ix2 r k := funext fun a => Fin.ext (by
    match a with
    | ⟨0, _⟩ => exact dotOut_lhs0 _ _
    | ⟨1, _⟩ => exact (dot_S50000x128_S128x64_S50000x64_1_0_0_1_n_n.lhsIdx_val_of_single rfl _ _).trans hk)
  have er : dot_S50000x128_S128x64_S50000x64_1_0_0_1_n_n.rhsIdx (ix2 r c) ((contrEquiv1 dot_S50000x128_S128x64_S50000x64_1_0_0_1_n_n 128 rfl rfl).symm k) = ix2 k c := funext fun a => Fin.ext (by
    match a with
    | ⟨0, _⟩ => exact (dot_S50000x128_S128x64_S50000x64_1_0_0_1_n_n.rhsIdx_val_of_single rfl _ _).trans hk
    | ⟨1, _⟩ => exact dotOut_rhs1 _ _)
  rw [el, er]

/-! ### Broadcasts at an index -/

/-- A column of per-row factors spread over 128 columns reads the row's factor. -/
theorem colB_apply (s : FVec Ideal S50000x1 .f32) (r : Fin 50000) (c : Fin 128) :
    broadcastInDim S50000x128 ![0, 1] bcast_S50000x1_S50000x128_0_1 s (ix2 r c) = s (ix2 r (0 : Fin 1)) :=
  broadcastInDim_apply _ bcast_S50000x1_S50000x128_0_1 s (ix2 r c) (ix2 r (0 : Fin 1)) (fun a => match a with
    | ⟨0, _⟩ => by show r.val = if (50000 : Nat) = 1 then 0 else r.val; rw [if_neg (by decide)]
    | ⟨1, _⟩ => by show 0 = if (1 : Nat) = 1 then 0 else c.val; rw [if_pos rfl])

/-- A row of per-column terms spread over the 50000 rows reads the column's term. -/
theorem rowB_apply (b : FVec Ideal S1x128 .f32) (r : Fin 50000) (c : Fin 128) :
    broadcastInDim S50000x128 ![0, 1] bcast_S1x128_S50000x128_0_1 b (ix2 r c) = b (ix2 (0 : Fin 1) c) :=
  broadcastInDim_apply _ bcast_S1x128_S50000x128_0_1 b (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])

/-- The same for a row of 64 terms. -/
theorem rowOutB_apply (b : FVec Ideal S1x64 .f32) (r : Fin 50000) (c : Fin 64) :
    broadcastInDim S50000x64 ![0, 1] bcast_S1x64_S50000x64_0_1 b (ix2 r c) = b (ix2 (0 : Fin 1) c) :=
  broadcastInDim_apply _ bcast_S1x64_S50000x64_0_1 b (ix2 r c) (ix2 (0 : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])

/-- The splat of the zero word reads the zero word everywhere. -/
theorem zeroB_apply (i : S50000x128.Idx) :
    broadcastInDim S50000x128 ![] bcast_S_S50000x128 (constant (F := Ideal) S_ .f32 0x00000000#32) i = Cert.Stages.zeroW :=
  broadcastInDim_apply _ bcast_S_S50000x128 (constant (F := Ideal) S_ .f32 0x00000000#32) i ix0 (fun a => a.elim0)

/-! ### The dense stages, as whole arrays -/

/-- A product of a row-scaled array with a square weight matrix and no bias: the linear stage with a zero bias row. -/
theorem unbiased_eq (X : FVec Ideal S50000x128 .f32) (s : FVec Ideal S50000x1 .f32) (W : FVec Ideal S128x128 .f32) :
    (Host.dotGeneral (F := Ideal) dot_S50000x128_S128x128_S50000x128_1_0_0_1_n_n none
        (mulf X (broadcastInDim S50000x128 ![0, 1] bcast_S50000x1_S50000x128_0_1 s)) W : FVec Ideal S50000x128 .f32)
      = Cert.Stages.lin X s W (fun _ => Cert.Stages.zeroW) := by
  funext i
  obtain ⟨r, c, rfl⟩ : ∃ (r : Fin 50000) (c : Fin 128), i = ix2 r c := ⟨i 0, i 1, eq_ix2 i⟩
  rw [dotSq_apply]
  show _ = Cert.Stages.linAt X s W (fun _ => Cert.Stages.zeroW) r c
  rw [Cert.Stages.linAt_zeros]
  refine Finset.sum_congr rfl fun k _ => ?_
  rw [mulf_apply, colB_apply]

/-- An unscaled product with a square weight matrix, plus a bias row: the linear stage with a column of ones. -/
theorem unscaled_eq (X : FVec Ideal S50000x128 .f32) (W : FVec Ideal S128x128 .f32) (b : FVec Ideal S1x128 .f32) :
    (addf (Host.dotGeneral (F := Ideal) dot_S50000x128_S128x128_S50000x128_1_0_0_1_n_n none X W)
        (broadcastInDim S50000x128 ![0, 1] bcast_S1x128_S50000x128_0_1 b) : FVec Ideal S50000x128 .f32)
      = Cert.Stages.lin X (fun _ => Cert.Stages.oneW) W b := by
  funext i
  obtain ⟨r, c, rfl⟩ : ∃ (r : Fin 50000) (c : Fin 128), i = ix2 r c := ⟨i 0, i 1, eq_ix2 i⟩
  rw [addf_apply, dotSq_apply, rowB_apply]
  show _ = Cert.Stages.linAt X (fun _ => Cert.Stages.oneW) W b r c
  rw [Cert.Stages.linAt_ones]

/-- The output projection: an unscaled product with the 128 x 64 weight matrix, plus its bias row. -/
theorem unscaledOut_eq (X : FVec Ideal S50000x128 .f32) (W : FVec Ideal S128x64 .f32) (b : FVec Ideal S1x64 .f32) :
    (addf (Host.dotGeneral (F := Ideal) dot_S50000x128_S128x64_S50000x64_1_0_0_1_n_n none X W)
        (broadcastInDim S50000x64 ![0, 1] bcast_S1x64_S50000x64_0_1 b) : FVec Ideal S50000x64 .f32)
      = Cert.Stages.linOut X (fun _ => Cert.Stages.oneW) W b := by
  funext i
  obtain ⟨r, c, rfl⟩ : ∃ (r : Fin 50000) (c : Fin 64), i = ix2 r c := ⟨i 0, i 1, eq_ix2 i⟩
  rw [addf_apply, dotOut_apply, rowOutB_apply]
  show _ = Cert.Stages.linOutAt X (fun _ => Cert.Stages.oneW) W b r c
  rw [Cert.Stages.linOutAt_ones]

/-- Scale per row, add a bias row, clamp below at zero: the post-aggregation stage. -/
theorem post_eq (A : FVec Ideal S50000x128 .f32) (s : FVec Ideal S50000x1 .f32) (b : FVec Ideal S1x128 .f32) :
    (maximumf (addf (mulf A (broadcastInDim S50000x128 ![0, 1] bcast_S50000x1_S50000x128_0_1 s))
          (broadcastInDim S50000x128 ![0, 1] bcast_S1x128_S50000x128_0_1 b))
        (broadcastInDim S50000x128 ![] bcast_S_S50000x128 (constant (F := Ideal) S_ .f32 0x00000000#32)) : FVec Ideal S50000x128 .f32)
      = Cert.Stages.post A s b := by
  funext i
  obtain ⟨r, c, rfl⟩ : ∃ (r : Fin 50000) (c : Fin 128), i = ix2 r c := ⟨i 0, i 1, eq_ix2 i⟩
  rw [maximumf_apply, addf_apply, mulf_apply, colB_apply, rowB_apply, zeroB_apply]
  rfl

/-- The same with a residual array added before the clamp. -/
theorem postRes_eq (A : FVec Ideal S50000x128 .f32) (s : FVec Ideal S50000x1 .f32) (b : FVec Ideal S1x128 .f32)
    (R : FVec Ideal S50000x128 .f32) :
    (maximumf (addf (addf (mulf A (broadcastInDim S50000x128 ![0, 1] bcast_S50000x1_S50000x128_0_1 s))
            (broadcastInDim S50000x128 ![0, 1] bcast_S1x128_S50000x128_0_1 b)) R)
        (broadcastInDim S50000x128 ![] bcast_S_S50000x128 (constant (F := Ideal) S_ .f32 0x00000000#32)) : FVec Ideal S50000x128 .f32)
      = Cert.Stages.postRes A s b R := by
  funext i
  obtain ⟨r, c, rfl⟩ : ∃ (r : Fin 50000) (c : Fin 128), i = ix2 r c := ⟨i 0, i 1, eq_ix2 i⟩
  rw [maximumf_apply, addf_apply, addf_apply, mulf_apply, colB_apply, rowB_apply, zeroB_apply]
  rfl

/-! ### The reference's sub-terms that carry no dense arithmetic -/

/-- The edge list's first row: every edge's source node. -/
def srcIdx (m : (ℓ : Loc nD τ sig) → Buf (Elt Ideal) ℓ) (c : Dev nD) : IVec S800000 32 :=
  shapeCast _ (extractStridedSlice S1x800000 ![0, 0] (m ((c.tc : Thread nD τ).loc main_arg1)) slices_S2x800000_S1x800000_0_0) shapeCasts_S1x800000_S800000

/-- The edge list's second row: every edge's destination node. -/
def dstIdx (m : (ℓ : Loc nD τ sig) → Buf (Elt Ideal) ℓ) (c : Dev nD) : IVec S800000 32 :=
  shapeCast _ (extractStridedSlice S1x800000 ![1, 0] (m ((c.tc : Thread nD τ).loc main_arg1)) slices_S2x800000_S1x800000_1_0) shapeCasts_S1x800000_S800000

/-- The per-node factor of an index row: with `deg` the number of times a node occurs in the row (ones added at the
    row's entries), the factor is `1 / sqrt (max deg 1)` where `deg > 0` and zero elsewhere. -/
def normOf (idx : IVec S800000 32) : FVec Ideal S50000 .f32 :=
  select (cmpf (F := Ideal) .ogt (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 idx) (broadcastInDim S800000 ![] bcast_S_S800000 (constant (F := Ideal) S_ .f32 0x3F800000#32))) (broadcastInDim S50000 ![] bcast_S_S50000 (constant (F := Ideal) S_ .f32 0x00000000#32))) (Host.rsqrt (F := Ideal) (maximumf (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 idx) (broadcastInDim S800000 ![] bcast_S_S800000 (constant (F := Ideal) S_ .f32 0x3F800000#32))) (broadcastInDim S50000 ![] bcast_S_S50000 (constant (F := Ideal) S_ .f32 0x3F800000#32)))) (broadcastInDim S50000 ![] bcast_S_S50000 (id (constant (F := Ideal) S_ .f32 0x00000000#32)))

/-- A vector of per-node values laid out as a column. -/
def colOf (v : FVec Ideal S50000 .f32) : FVec Ideal S50000x1 .f32 :=
  broadcastInDim S50000x1 ![0] bcast_S50000_S50000x1_0 v

/-- A vector of 128 per-feature values laid out as a row. -/
def rowOf (b : FVec Ideal S128 .f32) : FVec Ideal S1x128 .f32 :=
  broadcastInDim S1x128 ![1] bcast_S128_S1x128_1 b

/-- A vector of 64 per-feature values laid out as a row. -/
def rowOutOf (b : FVec Ideal S64 .f32) : FVec Ideal S1x64 .f32 :=
  broadcastInDim S1x64 ![1] bcast_S64_S1x64_1 b

/-- The sparse aggregation of a feature array `h` along the edges: gather the row of every edge's source node (a
    negative node number counts from the end), and add it into the row of the edge's destination node, starting
    from zeros. -/
def aggOf (src dst : IVec S800000 32) (h : FVec Ideal S50000x128 .f32) : FVec Ideal S50000x128 .f32 :=
  Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-! ### The reference's result -/

set_option maxRecDepth 8192 in
/-- The reference's result buffer is the network function of the argument arrays: the aggregation along the edge list,
    the node features, the two normalisation columns, the four weight matrices and the four bias rows. -/
theorem value (m : (ℓ : Loc nD τ sig) → Buf (Elt Ideal) ℓ) (c : Dev nD) :
    ValueP.res_main_v94 (F := Ideal) m c
      = Cert.Stages.net (aggOf (srcIdx m c) (dstIdx m c)) (m ((c.tc : Thread nD τ).loc main_arg0))
          (colOf (normOf (srcIdx m c))) (colOf (normOf (dstIdx m c))) (fun _ => Cert.Stages.oneW)
          (m ((c.tc : Thread nD τ).loc main_arg2)) (m ((c.tc : Thread nD τ).loc main_arg4)) (m ((c.tc : Thread nD τ).loc main_arg6)) (m ((c.tc : Thread nD τ).loc main_arg8))
          (rowOf (m ((c.tc : Thread nD τ).loc main_arg3))) (rowOf (m ((c.tc : Thread nD τ).loc main_arg5))) (rowOf (m ((c.tc : Thread nD τ).loc main_arg7))) (fun _ => Cert.Stages.zeroW) (rowOutOf (m ((c.tc : Thread nD τ).loc main_arg9))) := by
  unfold ValueP.res_main_v94
  rw [unscaledOut_eq, postRes_eq, unbiased_eq, post_eq, unbiased_eq, unscaled_eq]
  rfl

end Cert.ReferenceIdeal.RefValue

end
-- ==== Proof.Bridge.lean ====
/-
  The two programs spell the same host-side pieces.

  Around its launches the kernel program lays a vector out as a column or a row by a RESHAPE, where the reference uses
  a BROADCAST along a new unit axis. Both read the same entry: a reshape keeps the row-major position, and the
  position of (r, 0) in a 50000 x 1 array is r, that of (0, c) in a 1 x 128 array is c; the broadcast reads the
  operand at the coordinate of the one axis it keeps. The kernel program's column of ones and row of zeros are
  splats of the words of 1.0 and +0.0, so they are the constant functions at those words.

  The degree-normalisation factor, the sparse aggregation and the two rows of the edge list are written by both
  programs with the same operations over the same literal shapes and dimension numbers; the two texts differ only
  in which program's names they cite, and are equal by unfolding those names.
-/
import proofs.«178389_j45311904973180_1_alg».proof.Proof.KernelNames
import proofs.«178389_j45311904973180_1_alg».proof.Proof.RefValue
import Idealize.ShloMosaic.Lib.ValueIdx
import Idealize.ShloMosaic.Lib.Pipeline.Value
import Idealize.ShloMosaic.Lib.ValueLayout

noncomputable section

namespace Cert.Bridge

open Idealize.ShloMosaic Idealize.ShloMosaic.TcCoe Idealize.SL.Sem Idealize.ShloMosaic.StableHlo
open Idealize.ShloMosaic.ValueIdx

/-! ### A reshape into a column or a row is the broadcast along the new unit axis -/

/-- 50000 entries reshaped into a column, and the same entries broadcast along a new trailing unit axis: both read
    the row's entry. -/
theorem col_eq (v : FVec Ideal Cert.KernelIdeal.S50000 .f32) :
    (shapeCast Cert.KernelIdeal.S50000x1 v Cert.KernelIdeal.Gen.shapeCasts_S50000_S50000x1 : FVec Ideal Cert.KernelIdeal.S50000x1 .f32) = Cert.ReferenceIdeal.RefValue.colOf v := by
  funext i
  obtain ⟨r, z, rfl⟩ : ∃ (r : Fin 50000) (z : Fin 1), i = ix2 r z := ⟨i 0, i 1, eq_ix2 i⟩
  have hz : z.val = 0 := by have := z.isLt; omega
  rw [shapeCast_apply v Cert.KernelIdeal.Gen.shapeCasts_S50000_S50000x1 (ix2 r z) (ix1 r)
    (by rewrite [Shape.rowMajor_val_two, Shape.rowMajor_val_one]; show r.val = r.val * 1 + z.val; omega)]
  unfold Cert.ReferenceIdeal.RefValue.colOf
  exact (broadcastInDim_apply _ Cert.ReferenceIdeal.Gen.bcast_S50000_S50000x1_0 v (ix2 r z) (ix1 r) (fun a => match a with
    | ⟨0, _⟩ => by show r.val = if (50000 : Nat) = 1 then 0 else r.val; rw [if_neg (by decide)])).symm

/-- 128 entries reshaped into a row, and the same entries broadcast along a new leading unit axis: both read the
    column's entry. -/
theorem row_eq (b : FVec Ideal Cert.KernelIdeal.S128 .f32) :
    (shapeCast Cert.KernelIdeal.S1x128 b Cert.KernelIdeal.Gen.shapeCasts_S128_S1x128 : FVec Ideal Cert.KernelIdeal.S1x128 .f32) = Cert.ReferenceIdeal.RefValue.rowOf b := by
  funext i
  obtain ⟨z, q, rfl⟩ : ∃ (z : Fin 1) (q : Fin 128), i = ix2 z q := ⟨i 0, i 1, eq_ix2 i⟩
  have hz : z.val = 0 := by have := z.isLt; omega
  rw [shapeCast_apply b Cert.KernelIdeal.Gen.shapeCasts_S128_S1x128 (ix2 z q) (ix1 q)
    (by rewrite [Shape.rowMajor_val_two, Shape.rowMajor_val_one]; show q.val = z.val * 128 + q.val; omega)]
  unfold Cert.ReferenceIdeal.RefValue.rowOf
  exact (broadcastInDim_apply _ Cert.ReferenceIdeal.Gen.bcast_S128_S1x128_1 b (ix2 z q) (ix1 q) (fun a => match a with
    | ⟨0, _⟩ => by show q.val = if (128 : Nat) = 1 then 0 else q.val; rw [if_neg (by decide)])).symm

/-- The same for 64 entries. -/
theorem rowOut_eq (b : FVec Ideal Cert.KernelIdeal.S64 .f32) :
    (shapeCast Cert.KernelIdeal.S1x64 b Cert.KernelIdeal.Gen.shapeCasts_S64_S1x64 : FVec Ideal Cert.KernelIdeal.S1x64 .f32) = Cert.ReferenceIdeal.RefValue.rowOutOf b := by
  funext i
  obtain ⟨z, q, rfl⟩ : ∃ (z : Fin 1) (q : Fin 64), i = ix2 z q := ⟨i 0, i 1, eq_ix2 i⟩
  have hz : z.val = 0 := by have := z.isLt; omega
  rw [shapeCast_apply b Cert.KernelIdeal.Gen.shapeCasts_S64_S1x64 (ix2 z q) (ix1 q)
    (by rewrite [Shape.rowMajor_val_two, Shape.rowMajor_val_one]; show q.val = z.val * 64 + q.val; omega)]
  unfold Cert.ReferenceIdeal.RefValue.rowOutOf
  exact (broadcastInDim_apply _ Cert.ReferenceIdeal.Gen.bcast_S64_S1x64_1 b (ix2 z q) (ix1 q) (fun a => match a with
    | ⟨0, _⟩ => by show q.val = if (64 : Nat) = 1 then 0 else q.val; rw [if_neg (by decide)])).symm

/-! ### The splats of the words of 1.0 and +0.0 -/

/-- A column filled with the word of 1.0 is the constant function at that word. -/
theorem one_eq :
    (broadcastInDim Cert.KernelIdeal.S50000x1 ![] Cert.KernelIdeal.Gen.bcast_S_S50000x1 (constant (F := Ideal) Cert.KernelIdeal.S_ .f32 0x3F800000#32) : FVec Ideal Cert.KernelIdeal.S50000x1 .f32)
      = fun _ => Cert.Stages.oneW :=
  funext fun i => broadcastInDim_apply _ Cert.KernelIdeal.Gen.bcast_S_S50000x1 (constant (F := Ideal) Cert.KernelIdeal.S_ .f32 0x3F800000#32) i ix0 (fun a => a.elim0)

/-- A row filled with the word of +0.0 is the constant function at that word. -/
theorem zero_eq :
    (broadcastInDim Cert.KernelIdeal.S1x128 ![] Cert.KernelIdeal.Gen.bcast_S_S1x128 (constant (F := Ideal) Cert.KernelIdeal.S_ .f32 0x00000000#32) : FVec Ideal Cert.KernelIdeal.S1x128 .f32)
      = fun _ => Cert.Stages.zeroW :=
  funext fun i => broadcastInDim_apply _ Cert.KernelIdeal.Gen.bcast_S_S1x128 (constant (F := Ideal) Cert.KernelIdeal.S_ .f32 0x00000000#32) i ix0 (fun a => a.elim0)

/-! ### The pieces both programs write with the same operations -/

/-- The degree-normalisation factor of an index row. -/
theorem norm_eq (idx : IVec Cert.KernelIdeal.S800000 32) : Cert.KernelIdeal.Net.normOf idx = Cert.ReferenceIdeal.RefValue.normOf idx := by
  unfold Cert.KernelIdeal.Net.normOf Cert.KernelIdeal.Net.degOf Cert.ReferenceIdeal.RefValue.normOf
  rfl

/-- The sparse aggregation along an edge list. -/
theorem agg_eq (src dst : IVec Cert.KernelIdeal.S800000 32) : Cert.KernelIdeal.Net.aggOf src dst = Cert.ReferenceIdeal.RefValue.aggOf src dst := by
  funext h
  unfold Cert.KernelIdeal.Net.aggOf Cert.ReferenceIdeal.RefValue.aggOf
  rfl

/-- The edge list's row of source nodes, from memories that agree on the edge list. -/
theorem src_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.RefValue.srcIdx m' c = Cert.KernelIdeal.Net.srcIdx m c := by
  unfold Cert.ReferenceIdeal.RefValue.srcIdx Cert.KernelIdeal.Net.srcIdx
  rw [h]

/-- The edge list's row of destination nodes, from memories that agree on the edge list. -/
theorem dst_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.RefValue.dstIdx m' c = Cert.KernelIdeal.Net.dstIdx m c := by
  unfold Cert.ReferenceIdeal.RefValue.dstIdx Cert.KernelIdeal.Net.dstIdx
  rw [h]

end Cert.Bridge

end
-- ==== Proof.lean ====
/-
  A two-layer graph convolution with a residual branch and an output projection, computed by six pipelined kernel
  launches among host operations, against its plain array-language reference: at the ideal instance (floats are
  extended reals, every operation exact, a change of float format the identity) the two programs end with equal
  results, element by element, from memories that agree on the arguments.

  Both results are ONE function of the argument arrays, `Cert.Stages.net`: dense stages (a row-scaled projection
  with a bias row; scale, bias, clamp at zero, possibly with a residual) around a sparse aggregation along the edge
  list, which both programs compute with the same host operations on the same index rows and which is therefore
  carried as a function and never opened. The kernel's side: each launch's output array is the stage of the arrays
  it reads (its row blocks tile the 50000 rows; a block's entry is the stage's entry at the block's offset), and the
  segments' boundary contents compose to `net`. The reference's side: its composed term, rewritten stage by stage.
  The two differ only where the kernel passes a column of ones as the row scale (1 * x = x), a row of zeros as the
  bias (x + 0 = x), rounds to a narrower float on the way into a product (the identity here), and lays a vector out
  as a column or a row by a reshape where the reference broadcasts along a new unit axis: no step needs the inputs to
  be finite, so the precondition is never opened.

  The frames: the two kernel programs' are the generated frame certificates; the reference's is its run with the
  result dropped. The idealization rewrote no operation, so there is nothing to preserve.
-/
import proofs.«178389_j45311904973180_1_alg».proof.Defs
import proofs.«178389_j45311904973180_1_alg».proof.Proof.Gen.Kernel
import proofs.«178389_j45311904973180_1_alg».proof.Proof.Gen.Kernel.Frame
import proofs.«178389_j45311904973180_1_alg».proof.Proof.Gen.KernelIdeal
import proofs.«178389_j45311904973180_1_alg».proof.Proof.Gen.KernelIdeal.Frame
import proofs.«178389_j45311904973180_1_alg».proof.Proof.Gen.ReferenceIdeal
import proofs.«178389_j45311904973180_1_alg».proof.Proof.Gen.Pre_finite_inputs
import proofs.«178389_j45311904973180_1_alg».proof.Proof.KernelRun
import proofs.«178389_j45311904973180_1_alg».proof.Proof.KernelValue
import proofs.«178389_j45311904973180_1_alg».proof.Proof.RefRun
import proofs.«178389_j45311904973180_1_alg».proof.Proof.RefValue
import proofs.«178389_j45311904973180_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both programs end at the network's function of the arguments. -/
theorem algebraic : Cert.algebraic_KernelIdeal_ReferenceIdeal := by
  intro m ρ m' ρ' _ hagree
  refine ⟨fun c => Cert.KernelIdeal.Gen.W16 (F := Ideal) m ρ c (Proc.devRef .tc Cert.KernelIdeal.main_v57),
    Cert.KernelIdeal.Run.run (F := Ideal) m ρ, ?_⟩
  refine (θ_run Cert.ReferenceIdeal.defs _ _).mono (fun r h c => ⟨(h c).1.trans ?_, (h c).2⟩)
    (Cert.ReferenceIdeal.ValueP.run (F := Ideal) m' ρ')
  obtain ⟨h0, h1, h2, h3, h4, h5, h6, h7, h8, h9⟩ := hagree c
  show Cert.ReferenceIdeal.ValueP.res_main_v94 (F := Ideal) m' c
    = Cert.KernelIdeal.Gen.W16 (F := Ideal) m ρ c (Proc.devRef .tc Cert.KernelIdeal.main_v57)
  rw [Cert.ReferenceIdeal.RefValue.value m' c, Cert.KernelIdeal.Net.value m ρ c]
  rw [h0, h2, h3, h4, h5, h6, h7, h8, h9, Cert.Bridge.src_eq m m' c h1, Cert.Bridge.dst_eq m m' c h1]
  unfold Cert.KernelIdeal.Net.nsCol Cert.KernelIdeal.Net.ndCol Cert.KernelIdeal.Net.oneCol Cert.KernelIdeal.Net.zeroRow Cert.KernelIdeal.Net.rowOf Cert.KernelIdeal.Net.rowOutOf
  rw [Cert.Bridge.col_eq, Cert.Bridge.col_eq, Cert.Bridge.one_eq, Cert.Bridge.zero_eq, Cert.Bridge.row_eq, Cert.Bridge.row_eq, Cert.Bridge.row_eq, Cert.Bridge.rowOut_eq,
    Cert.Bridge.norm_eq, Cert.Bridge.norm_eq, Cert.Bridge.agg_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
